-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S2x200000 : Shape := ⟨2, ![2, 200000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S128x1 : Shape := ⟨2, ![128, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg9 : FVec F S128x1 .f32) (main_arg10 : FVec F S1 .f32) (main_v33 : IVec S_ 1) : IVec S_ 1 :=
  let main_v34 : FVec F S128x1 .f32 := Host.absf main_arg9
  let main_cst_12 : FVec F S_ .f32 := constant S_ .f32 0x7F800000#32
  let main_v35 : FVec F S128x1 .f32 := broadcastInDim S128x1 ![] bcast_S_S128x1 main_cst_12
  let main_v36 : IVec S128x1 1 := cmpf .olt main_v34 main_v35
  let main_c_13 : IVec S_ 1 := constantI S_ 1 1#1
  let main_v37 : IVec S_ 1 := (fun x v => Host.reduce IntOp.andi x v reducesTo_S128x1_S_d0_1 h_S_) main_v36 main_c_13
  let main_v38 : IVec S_ 1 := andi main_v33 main_v37
  let main_v39 : FVec F S1 .f32 := Host.absf main_arg10
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg6 : FVec F S128x64 .f32) (main_arg7 : FVec F S64 .f32) (main_arg8 : FVec F S128x64 .f32) (main_arg9 : FVec F S128x1 .f32) (main_arg10 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x64 .f32 := Host.absf main_arg6
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S128x64 .f32 := Host.absf main_arg8
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg9 main_arg10 main_v33

def fn {F : FTy → Type} [FloatOps F] (main_arg0 : FVec F S50000x128 .f32) (main_arg1 : IVec S2x800000 32) (main_arg2 : IVec S2x200000 32) (main_arg3 : FVec F S128x128 .f32) (main_arg4 : FVec F S128 .f32) (main_arg5 : FVec F S128x128 .f32) (main_arg6 : FVec F S128x64 .f32) (main_arg7 : FVec F S64 .f32) (main_arg8 : FVec F S128x64 .f32) (main_arg9 : FVec F S128x1 .f32) (main_arg10 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_v13 main_v16
-- ==== Kernel.lean ====
abbrev S50000x128 : Shape := ⟨2, ![50000, 128]⟩
abbrev S2x800000 : Shape := ⟨2, ![2, 800000]⟩
abbrev S2x200000 : Shape := ⟨2, ![2, 200000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩
abbrev S2000x128 : Shape := ⟨2, ![2000, 128]⟩
abbrev S1x64 : Shape := ⟨2, ![1, 64]⟩
abbrev S50000x64 : Shape := ⟨2, ![50000, 64]⟩
abbrev S2000x64 : Shape := ⟨2, ![2000, 64]⟩
abbrev S1x200000 : Shape := ⟨2, ![1, 200000]⟩
abbrev S200000 : Shape := ⟨1, ![200000]⟩
abbrev S200000x1 : Shape := ⟨2, ![200000, 1]⟩
abbrev S200000x64 : Shape := ⟨2, ![200000, 64]⟩
abbrev S200000x128 : Shape := ⟨2, ![200000, 128]⟩
abbrev S1x1 : Shape := ⟨2, ![1, 1]⟩
abbrev S5000x128 : Shape := ⟨2, ![5000, 128]⟩
abbrev S5000x1 : Shape := ⟨2, ![5000, 1]⟩

abbrev nBuf : Space → Nat
  | .hbm => 94
  | .vmem => 24
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S2x200000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x64, .f32⟩
  | .hbm, ⟨7, _⟩ => ⟨S64, .f32⟩
  | .hbm, ⟨8, _⟩ => ⟨S128x64, .f32⟩
  | .hbm, ⟨9, _⟩ => ⟨S128x1, .f32⟩
  | .hbm, ⟨10, _⟩ => ⟨S1, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000x128, .f32⟩
  | .hbm, ⟨24, _⟩ => ⟨S_, .f32⟩
  | .hbm, ⟨25, _⟩ => ⟨S50000x128, .f32⟩
  | .hbm, ⟨26, _⟩ => ⟨S800000x1, .i32⟩
  | .hbm, ⟨27, _⟩ => ⟨S50000x128, .f32⟩
  | .hbm, ⟨28, _⟩ => ⟨S_, .f32⟩
  | .hbm, ⟨29, _⟩ => ⟨S800000, .f32⟩
  | .hbm, ⟨30, _⟩ => ⟨S_, .f32⟩
  | .hbm, ⟨31, _⟩ => ⟨S50000, .f32⟩
  | .hbm, ⟨32, _⟩ => ⟨S800000x1, .i32⟩
  | .hbm, ⟨33, _⟩ => ⟨S50000, .f32⟩
  | .hbm, ⟨34, _⟩ => ⟨S_, .f32⟩
  | .hbm, ⟨35, _⟩ => ⟨S50000, .f32⟩
  | .hbm, ⟨36, _⟩ => ⟨S50000, .f32⟩
  | .hbm, ⟨37, _⟩ => ⟨S_, .f32⟩
  | .hbm, ⟨38, _⟩ => ⟨S50000, .f32⟩
  | .hbm, ⟨39, _⟩ => ⟨S50000, .f32⟩
  | .hbm, ⟨40, _⟩ => ⟨S50000x1, .f32⟩
  | .hbm, ⟨41, _⟩ => ⟨S50000x128, .f32⟩
  | .hbm, ⟨42, _⟩ => ⟨S50000x128, .f32⟩
  | .hbm, ⟨43, _⟩ => ⟨S128x128, .bf16⟩
  | .hbm, ⟨44, _⟩ => ⟨S128x128, .bf16⟩
  | .hbm, ⟨45, _⟩ => ⟨S1x128, .f32⟩
  | .hbm, ⟨46, _⟩ => ⟨S50000x128, .f32⟩
  | .hbm, ⟨47, _⟩ => ⟨S_, .i32⟩
  | .hbm, ⟨48, _⟩ => ⟨S800000, .i32⟩
  | .hbm, ⟨49, _⟩ => ⟨S800000, .i1⟩
  | .hbm, ⟨50, _⟩ => ⟨S_, .i32⟩
  | .hbm, ⟨51, _⟩ => ⟨S800000, .i32⟩
  | .hbm, ⟨52, _⟩ => ⟨S800000, .i32⟩
  | .hbm, ⟨53, _⟩ => ⟨S800000, .i32⟩
  | .hbm, ⟨54, _⟩ => ⟨S800000x1, .i32⟩
  | .hbm, ⟨55, _⟩ => ⟨S800000x128, .f32⟩
  | .hbm, ⟨56, _⟩ => ⟨S_, .f32⟩
  | .hbm, ⟨57, _⟩ => ⟨S50000x128, .f32⟩
  | .hbm, ⟨58, _⟩ => ⟨S800000x1, .i32⟩
  | .hbm, ⟨59, _⟩ => ⟨S50000x128, .f32⟩
  | .hbm, ⟨60, _⟩ => ⟨S50000x1, .f32⟩
  | .hbm, ⟨61, _⟩ => ⟨S50000x128, .f32⟩
  | .hbm, ⟨62, _⟩ => ⟨S50000x128, .f32⟩
  | .hbm, ⟨63, _⟩ => ⟨S128x64, .bf16⟩
  | .hbm, ⟨64, _⟩ => ⟨S128x64, .bf16⟩
  | .hbm, ⟨65, _⟩ => ⟨S1x64, .f32⟩
  | .hbm, ⟨66, _⟩ => ⟨S50000x64, .f32⟩
  | .hbm, ⟨67, _⟩ => ⟨S1x200000, .i32⟩
  | .hbm, ⟨68, _⟩ => ⟨S200000, .i32⟩
  | .hbm, ⟨69, _⟩ => ⟨S1x200000, .i32⟩
  | .hbm, ⟨70, _⟩ => ⟨S200000, .i32⟩
  | .hbm, ⟨71, _⟩ => ⟨S_, .i32⟩
  | .hbm, ⟨72, _⟩ => ⟨S200000, .i32⟩
  | .hbm, ⟨73, _⟩ => ⟨S200000, .i1⟩
  | .hbm, ⟨74, _⟩ => ⟨S_, .i32⟩
  | .hbm, ⟨75, _⟩ => ⟨S200000, .i32⟩
  | .hbm, ⟨76, _⟩ => ⟨S200000, .i32⟩
  | .hbm, ⟨77, _⟩ => ⟨S200000, .i32⟩
  | .hbm, ⟨78, _⟩ => ⟨S200000x1, .i32⟩
  | .hbm, ⟨79, _⟩ => ⟨S200000x64, .f32⟩
  | .hbm, ⟨80, _⟩ => ⟨S_, .i32⟩
  | .hbm, ⟨81, _⟩ => ⟨S200000, .i32⟩
  | .hbm, ⟨82, _⟩ => ⟨S200000, .i1⟩
  | .hbm, ⟨83, _⟩ => ⟨S_, .i32⟩
  | .hbm, ⟨84, _⟩ => ⟨S200000, .i32⟩
  | .hbm, ⟨85, _⟩ => ⟨S200000, .i32⟩
  | .hbm, ⟨86, _⟩ => ⟨S200000, .i32⟩
  | .hbm, ⟨87, _⟩ => ⟨S200000x1, .i32⟩
  | .hbm, ⟨88, _⟩ => ⟨S200000x64, .f32⟩
  | .hbm, ⟨89, _⟩ => ⟨S200000x128, .f32⟩
  | .hbm, ⟨90, _⟩ => ⟨S128x1, .bf16⟩
  | .hbm, ⟨91, _⟩ => ⟨S1x1, .f32⟩
  | .hbm, ⟨92, _⟩ => ⟨S200000x1, .f32⟩
  | .hbm, ⟨93, _⟩ => ⟨S200000, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .bf16⟩
  | .local _ .vmem, ⟨5, _⟩ => ⟨S128x128, .bf16⟩
  | .local _ .vmem, ⟨6, _⟩ => ⟨S1x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S128x64, .bf16⟩
  | .local _ .vmem, ⟨14, _⟩ => ⟨S128x64, .bf16⟩
  | .local _ .vmem, ⟨15, _⟩ => ⟨S1x64, .f32⟩
  | .local _ .vmem, ⟨16, _⟩ => ⟨S2000x64, .f32⟩
  | .local _ .vmem, ⟨17, _⟩ => ⟨S2000x64, .f32⟩
  | .local _ .vmem, ⟨18, _⟩ => ⟨S5000x128, .f32⟩
  | .local _ .vmem, ⟨19, _⟩ => ⟨S5000x128, .f32⟩
  | .local _ .vmem, ⟨20, _⟩ => ⟨S128x1, .bf16⟩
  | .local _ .vmem, ⟨21, _⟩ => ⟨S1x1, .f32⟩
  | .local _ .vmem, ⟨22, _⟩ => ⟨S5000x1, .f32⟩
  | .local _ .vmem, ⟨23, _⟩ => ⟨S5000x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_cst_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_c_5 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_7 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_c_8 : Ref sig .tc := ⟨.hbm, 71, rfl⟩
abbrev main_v50 : Ref sig .tc := ⟨.hbm, 72, rfl⟩
abbrev main_v51 : Ref sig .tc := ⟨.hbm, 73, rfl⟩
abbrev main_c_9 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_c_10 : Ref sig .tc := ⟨.hbm, 80, rfl⟩
abbrev main_v57 : Ref sig .tc := ⟨.hbm, 81, rfl⟩
abbrev main_v58 : Ref sig .tc := ⟨.hbm, 82, rfl⟩
abbrev main_c_11 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg3_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem3_1 : DmaSem sig := 23

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x64 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x64 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![40], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x1 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bitsLt_bf16_f32 : FTy.bits .bf16 < FTy.bits .f32
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  shapeCasts_S64_S1x64 : S64.ShapeCasts S1x64
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  slices_S2x200000_S1x200000_0_0 : S2x200000.Slices ![0, 0] S1x200000
  shapeCasts_S1x200000_S200000 : S1x200000.ShapeCasts S200000
  slices_S2x200000_S1x200000_1_0 : S2x200000.Slices ![1, 0] S1x200000
  bcast_S_S200000 : S_.BroadcastsInDim S200000 (![] : Fin 0 → Fin S200000.rank)
  bcast_S200000_S200000x1_0 : S200000.BroadcastsInDim S200000x1 (![0] : Fin 1 → Fin S200000x1.rank)
  concatenates_S200000x64_S200000x64_S200000x128_d1 : Shape.Concatenates [S200000x64, S200000x64] S200000x128 1
  shapeCasts_S1_S1x1 : S1.ShapeCasts S1x1
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  shapeCasts_S200000x1_S200000 : S200000x1.ShapeCasts S200000
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S2000x128_S128x128_S2000x128_1_0_0_1_n_n_wf : DotDims.WF S2000x128 S128x128 S2000x128 [1] [0] [0] [1] [] []
  dot_S2000x128_S128x64_S2000x64_1_0_0_1_n_n_wf : DotDims.WF S2000x128 S128x64 S2000x64 [1] [0] [0] [1] [] []
  gather_S50000x64_S200000x1_S200000x64_1_0_n_n_0_1_164_wf : GatherDims.WF S50000x64 S200000x1 S200000x64 [1] [0] [] [0] [] 1 ![1, 64]
  dot_S5000x128_S128x1_S5000x1_1_0_0_1_n_n_wf : DotDims.WF S5000x128 S128x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S50000x128.size a
  hwx0_5 : ∀ i : grid0.Coords, EltTy.bits .f32 = 32 ∨ (Rect.block (s := S50000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .bf16 = 32 ∨ (Rect.block (s := S128x64) S128x64.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .bf16 = 32 ∨ (Rect.block (s := S128x64) S128x64.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x64.size a ≤ S50000x64.size a
  hwx1_5 : ∀ i : grid1.Coords, EltTy.bits .f32 = 32 ∨ (Rect.block (s := S50000x64) S2000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S200000x128.size a
  hwx2_0 : ∀ i : grid2.Coords, EltTy.bits .f32 = 32 ∨ (Rect.block (s := S200000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x1.size a ≤ S128x1.size a
  hwx2_1 : ∀ i : grid2.Coords, EltTy.bits .bf16 = 32 ∨ (Rect.block (s := S128x1) S128x1.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1.size a ≤ S1x1.size a
  hwx2_2 : ∀ i : grid2.Coords, EltTy.bits .f32 = 32 ∨ (Rect.block (s := S1x1) S1x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x1.size a ≤ S200000x1.size a
  hwx2_3 : ∀ i : grid2.Coords, EltTy.bits .f32 = 32 ∨ (Rect.block (s := S200000x1) S5000x1.size (cc2_transform_3 i) (hinb2_3 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S50000x64_S200000x1_S200000x64_1_0_n_n_0_1_164 : GatherDims S50000x64 S200000x1 S200000x64 where
  offsetDims := [1]
  collapsedSliceDims := [0]
  operandBatchingDims := []
  startIndicesBatchingDims := []
  startIndexMap := [0]
  indexVectorDim := 1
  sliceSizes := ![1, 64]
  wf := gather_S50000x64_S200000x1_S200000x64_1_0_n_n_0_1_164_wf
def dot_S5000x128_S128x1_S5000x1_1_0_0_1_n_n : DotDims S5000x128 S128x1 S5000x1 where
  lhsContracting := [1]
  rhsContracting := [0]
  lhsNonContracting := [0]
  rhsNonContracting := [1]
  lhsBatch := []
  rhsBatch := []
  wf := dot_S5000x128_S128x1_S5000x1_1_0_0_1_n_n_wf

abbrev win0_0 : Pipeline.Window sig grid0 :=
  Pipeline.Window.ofSpec (Memref.whole main_v24) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v26) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v27) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v41) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v42) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v43) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S2000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v64) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v65) S128x1.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v66) S1x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v67) S5000x1.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S2x200000 : Shape := ⟨2, ![2, 200000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩
abbrev S50000x64 : Shape := ⟨2, ![50000, 64]⟩
abbrev S1x64 : Shape := ⟨2, ![1, 64]⟩
abbrev S1x200000 : Shape := ⟨2, ![1, 200000]⟩
abbrev S200000 : Shape := ⟨1, ![200000]⟩
abbrev S200000x1 : Shape := ⟨2, ![200000, 1]⟩
abbrev S200000x64 : Shape := ⟨2, ![200000, 64]⟩
abbrev S200000x128 : Shape := ⟨2, ![200000, 128]⟩
abbrev S1x1 : Shape := ⟨2, ![1, 1]⟩

abbrev nBuf : Space → Nat
  | .hbm => 116
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S2x200000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x64, .f32⟩
  | .hbm, ⟨7, _⟩ => ⟨S64, .f32⟩
  | .hbm, ⟨8, _⟩ => ⟨S128x64, .f32⟩
  | .hbm, ⟨9, _⟩ => ⟨S128x1, .f32⟩
  | .hbm, ⟨10, _⟩ => ⟨S1, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000x128, .f32⟩
  | .hbm, ⟨24, _⟩ => ⟨S_, .f32⟩
  | .hbm, ⟨25, _⟩ => ⟨S50000x128, .f32⟩
  | .hbm, ⟨26, _⟩ => ⟨S800000x1, .i32⟩
  | .hbm, ⟨27, _⟩ => ⟨S50000x128, .f32⟩
  | .hbm, ⟨28, _⟩ => ⟨S_, .f32⟩
  | .hbm, ⟨29, _⟩ => ⟨S800000, .f32⟩
  | .hbm, ⟨30, _⟩ => ⟨S_, .f32⟩
  | .hbm, ⟨31, _⟩ => ⟨S50000, .f32⟩
  | .hbm, ⟨32, _⟩ => ⟨S800000x1, .i32⟩
  | .hbm, ⟨33, _⟩ => ⟨S50000, .f32⟩
  | .hbm, ⟨34, _⟩ => ⟨S_, .f32⟩
  | .hbm, ⟨35, _⟩ => ⟨S50000, .f32⟩
  | .hbm, ⟨36, _⟩ => ⟨S50000, .f32⟩
  | .hbm, ⟨37, _⟩ => ⟨S50000x1, .f32⟩
  | .hbm, ⟨38, _⟩ => ⟨S50000x128, .f32⟩
  | .hbm, ⟨39, _⟩ => ⟨S50000x128, .f32⟩
  | .hbm, ⟨40, _⟩ => ⟨S50000x128, .f32⟩
  | .hbm, ⟨41, _⟩ => ⟨S1x128, .f32⟩
  | .hbm, ⟨42, _⟩ => ⟨S50000x128, .f32⟩
  | .hbm, ⟨43, _⟩ => ⟨S50000x128, .f32⟩
  | .hbm, ⟨44, _⟩ => ⟨S50000x128, .f32⟩
  | .hbm, ⟨45, _⟩ => ⟨S50000x128, .f32⟩
  | .hbm, ⟨46, _⟩ => ⟨S_, .f32⟩
  | .hbm, ⟨47, _⟩ => ⟨S50000x128, .f32⟩
  | .hbm, ⟨48, _⟩ => ⟨S50000x128, .f32⟩
  | .hbm, ⟨49, _⟩ => ⟨S_, .i32⟩
  | .hbm, ⟨50, _⟩ => ⟨S800000, .i32⟩
  | .hbm, ⟨51, _⟩ => ⟨S800000, .i1⟩
  | .hbm, ⟨52, _⟩ => ⟨S_, .i32⟩
  | .hbm, ⟨53, _⟩ => ⟨S800000, .i32⟩
  | .hbm, ⟨54, _⟩ => ⟨S800000, .i32⟩
  | .hbm, ⟨55, _⟩ => ⟨S800000, .i32⟩
  | .hbm, ⟨56, _⟩ => ⟨S800000x1, .i32⟩
  | .hbm, ⟨57, _⟩ => ⟨S800000x128, .f32⟩
  | .hbm, ⟨58, _⟩ => ⟨S_, .f32⟩
  | .hbm, ⟨59, _⟩ => ⟨S50000x128, .f32⟩
  | .hbm, ⟨60, _⟩ => ⟨S800000x1, .i32⟩
  | .hbm, ⟨61, _⟩ => ⟨S50000x128, .f32⟩
  | .hbm, ⟨62, _⟩ => ⟨S_, .f32⟩
  | .hbm, ⟨63, _⟩ => ⟨S800000, .f32⟩
  | .hbm, ⟨64, _⟩ => ⟨S_, .f32⟩
  | .hbm, ⟨65, _⟩ => ⟨S50000, .f32⟩
  | .hbm, ⟨66, _⟩ => ⟨S800000x1, .i32⟩
  | .hbm, ⟨67, _⟩ => ⟨S50000, .f32⟩
  | .hbm, ⟨68, _⟩ => ⟨S_, .f32⟩
  | .hbm, ⟨69, _⟩ => ⟨S50000, .f32⟩
  | .hbm, ⟨70, _⟩ => ⟨S50000, .f32⟩
  | .hbm, ⟨71, _⟩ => ⟨S50000x1, .f32⟩
  | .hbm, ⟨72, _⟩ => ⟨S50000x128, .f32⟩
  | .hbm, ⟨73, _⟩ => ⟨S50000x128, .f32⟩
  | .hbm, ⟨74, _⟩ => ⟨S50000x64, .f32⟩
  | .hbm, ⟨75, _⟩ => ⟨S1x64, .f32⟩
  | .hbm, ⟨76, _⟩ => ⟨S50000x64, .f32⟩
  | .hbm, ⟨77, _⟩ => ⟨S50000x64, .f32⟩
  | .hbm, ⟨78, _⟩ => ⟨S50000x64, .f32⟩
  | .hbm, ⟨79, _⟩ => ⟨S50000x64, .f32⟩
  | .hbm, ⟨80, _⟩ => ⟨S1x200000, .i32⟩
  | .hbm, ⟨81, _⟩ => ⟨S200000, .i32⟩
  | .hbm, ⟨82, _⟩ => ⟨S1x200000, .i32⟩
  | .hbm, ⟨83, _⟩ => ⟨S200000, .i32⟩
  | .hbm, ⟨84, _⟩ => ⟨S_, .i32⟩
  | .hbm, ⟨85, _⟩ => ⟨S200000, .i32⟩
  | .hbm, ⟨86, _⟩ => ⟨S200000, .i1⟩
  | .hbm, ⟨87, _⟩ => ⟨S_, .i32⟩
  | .hbm, ⟨88, _⟩ => ⟨S200000, .i32⟩
  | .hbm, ⟨89, _⟩ => ⟨S200000, .i32⟩
  | .hbm, ⟨90, _⟩ => ⟨S200000, .i32⟩
  | .hbm, ⟨91, _⟩ => ⟨S200000x1, .i32⟩
  | .hbm, ⟨92, _⟩ => ⟨S200000x64, .f32⟩
  | .hbm, ⟨93, _⟩ => ⟨S_, .i32⟩
  | .hbm, ⟨94, _⟩ => ⟨S200000, .i32⟩
  | .hbm, ⟨95, _⟩ => ⟨S200000, .i1⟩
  | .hbm, ⟨96, _⟩ => ⟨S_, .i32⟩
  | .hbm, ⟨97, _⟩ => ⟨S200000, .i32⟩
  | .hbm, ⟨98, _⟩ => ⟨S200000, .i32⟩
  | .hbm, ⟨99, _⟩ => ⟨S200000, .i32⟩
  | .hbm, ⟨100, _⟩ => ⟨S200000x1, .i32⟩
  | .hbm, ⟨101, _⟩ => ⟨S200000x64, .f32⟩
  | .hbm, ⟨102, _⟩ => ⟨S200000x128, .f32⟩
  | .hbm, ⟨103, _⟩ => ⟨S200000x1, .f32⟩
  | .hbm, ⟨104, _⟩ => ⟨S1x1, .f32⟩
  | .hbm, ⟨105, _⟩ => ⟨S200000x1, .f32⟩
  | .hbm, ⟨106, _⟩ => ⟨S200000x1, .f32⟩
  | .hbm, ⟨107, _⟩ => ⟨S200000x1, .f32⟩
  | .hbm, ⟨108, _⟩ => ⟨S200000x1, .f32⟩
  | .hbm, ⟨109, _⟩ => ⟨S_, .f32⟩
  | .hbm, ⟨110, _⟩ => ⟨S200000x1, .f32⟩
  | .hbm, ⟨111, _⟩ => ⟨S200000x1, .f32⟩
  | .hbm, ⟨112, _⟩ => ⟨S_, .f32⟩
  | .hbm, ⟨113, _⟩ => ⟨S200000x1, .f32⟩
  | .hbm, ⟨114, _⟩ => ⟨S200000x1, .f32⟩
  | .hbm, ⟨115, _⟩ => ⟨S200000, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_call0_cst : Ref sig .tc := ⟨.hbm, 46, rfl⟩
abbrev main_call0_v0 : Ref sig .tc := ⟨.hbm, 47, rfl⟩
abbrev main_v29 : Ref sig .tc := ⟨.hbm, 48, rfl⟩
abbrev main_c_4 : Ref sig .tc := ⟨.hbm, 49, rfl⟩
abbrev main_v30 : Ref sig .tc := ⟨.hbm, 50, rfl⟩
abbrev main_v31 : Ref sig .tc := ⟨.hbm, 51, rfl⟩
abbrev main_c_5 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_6 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_7 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_9 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_c_10 : Ref sig .tc := ⟨.hbm, 84, rfl⟩
abbrev main_v59 : Ref sig .tc := ⟨.hbm, 85, rfl⟩
abbrev main_v60 : Ref sig .tc := ⟨.hbm, 86, rfl⟩
abbrev main_c_11 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_c_12 : Ref sig .tc := ⟨.hbm, 93, rfl⟩
abbrev main_v66 : Ref sig .tc := ⟨.hbm, 94, rfl⟩
abbrev main_v67 : Ref sig .tc := ⟨.hbm, 95, rfl⟩
abbrev main_c_13 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_cst_14 : Ref sig .tc := ⟨.hbm, 109, rfl⟩
abbrev main_v80 : Ref sig .tc := ⟨.hbm, 110, rfl⟩
abbrev main_v81 : Ref sig .tc := ⟨.hbm, 111, rfl⟩
abbrev main_cst_15 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  slices_S2x200000_S1x200000_0_0 : S2x200000.Slices ![0, 0] S1x200000
  shapeCasts_S1x200000_S200000 : S1x200000.ShapeCasts S200000
  slices_S2x200000_S1x200000_1_0 : S2x200000.Slices ![1, 0] S1x200000
  bcast_S_S200000 : S_.BroadcastsInDim S200000 (![] : Fin 0 → Fin S200000.rank)
  bcast_S200000_S200000x1_0 : S200000.BroadcastsInDim S200000x1 (![0] : Fin 1 → Fin S200000x1.rank)
  concatenates_S200000x64_S200000x64_S200000x128_d1 : Shape.Concatenates [S200000x64, S200000x64] S200000x128 1
  bcast_S1_S1x1_1 : S1.BroadcastsInDim S1x1 (![1] : Fin 1 → Fin S1x1.rank)
  bcast_S1x1_S200000x1_0_1 : S1x1.BroadcastsInDim S200000x1 (![0, 1] : Fin 2 → Fin S200000x1.rank)
  bcast_S_S200000x1 : S_.BroadcastsInDim S200000x1 (![] : Fin 0 → Fin S200000x1.rank)
  shapeCasts_S200000x1_S200000 : S200000x1.ShapeCasts S200000
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []
  gather_S50000x64_S200000x1_S200000x64_1_0_n_n_0_1_164_wf : GatherDims.WF S50000x64 S200000x1 S200000x64 [1] [0] [] [0] [] 1 ![1, 64]
  dot_S200000x128_S128x1_S200000x1_1_0_0_1_n_n_wf : DotDims.WF S200000x128 S128x1 S200000x1 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S200000x1_S200000x64_1_0_n_n_0_1_164 : GatherDims S50000x64 S200000x1 S200000x64 where
  offsetDims := [1]
  collapsedSliceDims := [0]
  operandBatchingDims := []
  startIndicesBatchingDims := []
  startIndexMap := [0]
  indexVectorDim := 1
  sliceSizes := ![1, 64]
  wf := gather_S50000x64_S200000x1_S200000x64_1_0_n_n_0_1_164_wf
def dot_S200000x128_S128x1_S200000x1_1_0_0_1_n_n : DotDims S200000x128 S128x1 S200000x1 where
  lhsContracting := [1]
  rhsContracting := [0]
  lhsNonContracting := [0]
  rhsNonContracting := [1]
  lhsBatch := []
  rhsBatch := []
  wf := dot_S200000x128_S128x1_S200000x1_1_0_0_1_n_n_wf

class Facts : Prop extends Facts₀ where

variable [Facts]
-- ==== Proof.WholeRun.lean ====
/-
  The idealized kernel's run with EVERY buffer named at the end.

  @main is seven segments: four stretches of host operations around three kernel regions. The contents of the
  TensorCore's buffers at each boundary are a fold from the launch memory: a stretch applies its operations, a region
  replaces its arrays by what its write-backs leave. Every weakly fair execution terminates, and at the end each
  buffer that is not scoped to a region holds the last boundary's contents. The result buffer is one of them, so its
  final contents are the fold read at the result; the argument arrays are others, and the fold walks back to the launch
  memory there.
-/
import proofs.«167707_j61263413510801_2_alg».proof.Defs
import proofs.«167707_j61263413510801_2_alg».proof.Proof.Gen.KernelIdeal.Frame

set_option maxRecDepth 16384

noncomputable section

namespace Cert.KernelIdeal.WholeRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, and every buffer not scoped to a region ends at the
    last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

/-- The run with the result buffer at the last boundary's contents and the argument arrays as launched. -/
theorem run_result : θ_run defs (onTc (τ := τ) (main (F := F))) ⟨m, fun _ => 0, ρ⟩ (fun r => ∀ c : Dev nD,
      r.2.mem ((c.tc : Thread nD τ).loc main_v68) = W7 m ρ c (Proc.devRef .tc main_v68)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun s h c =>
      ⟨h c _ (mem_uc main_v68 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c),
       (h c _ (mem_uc main_arg10 (by decide))).trans (W7_main_arg10 m ρ c)⟩)
    (run_all m ρ)

end Cert.KernelIdeal.WholeRun

end
-- ==== Proof.LibMatmulNN.lean ====
/-
  A matrix product of a row-major `M × K` block against a `K × N` block (the right operand NOT transposed:
  the left operand's axis 1 is contracted with the right operand's axis 0), accumulated into the zero block,
  read at the extended reals: entry `(p, q)` of the result is the sum over `k` of `x[p, k] · w[k, q]`.
  The matrix unit's contraction index ranges over a one-axis shape of extent `K`; it is re-indexed to `Fin K`,
  and the operand indices the dot's dimension record computes are named coordinate by coordinate.
  General in the three extents and in the operands' float formats.
-/
import Idealize.ShloMosaic.PureOps.Ideal.Laws
import Idealize.ShloMosaic.Lib.ValueIdx

noncomputable section

open scoped BigOperators

namespace LibMatmulNN

open Idealize.ShloMosaic Idealize.ShloMosaic.ValueIdx

variable (M K N : Nat)

/-- The left operand's index at output index `(p, q)` and contraction index `k` is `(p, k)`. -/
theorem lhsIdx_eq (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl _ _).trans hk

/-- The right operand's index at output index `(p, q)` and contraction index `k` is `(k, q)`. -/
theorem rhsIdx_eq (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single rfl _ _).trans hk
  | ⟨1, _⟩ => rfl

/-- Entry `(p, q)` of `x · w` accumulated into zero is `∑ k, x[p, k] · w[k, q]` on the extended reals. -/
theorem matmul_zero_apply {φ₁ φ₂ : FTy} (prec : Option ContractPrecision)
    (x : FVec Ideal ⟨2, ![M, K]⟩ φ₁) (w : FVec Ideal ⟨2, ![K, N]⟩ φ₂) (p : Fin M) (q : Fin N) :
    FloatOps.matmul (DotDims.plain M K N) prec x w (constant (F := Ideal) ⟨2, ![M, N]⟩ .f32 0x00000000#32) (ix2 p q)
      = ∑ k : Fin K, x (ix2 p k) * w (ix2 k q) := by
  rw [Ideal.matmul_constant_zero_apply, ← Equiv.sum_comp (contrEquiv1 (DotDims.plain M K N) K rfl rfl).symm]
  refine Finset.sum_congr rfl fun k _ => ?_
  rw [lhsIdx_eq, rhsIdx_eq]

end LibMatmulNN

end
-- ==== Proof.Region2.lean ====
/-
  The decode kernel region, as one function of the arrays it is entered with.

  The region walks the 200000 pairs in 40 blocks of 5000. At block `t` the body multiplies the block of concatenated pair
  features by the 128 by 1 weight column, adds the one bias, and applies the logistic function. On the extended reals
  entry `(i, 0)` of what the region leaves is `logistic (∑ₖ hcat[i,k]·w[k,0] + b[0,0])`, a function of row `i` of the
  row-blocked operand alone, so the blocks written back are the restrictions of ONE whole-array function, and they tile
  the array.
-/
import proofs.«167707_j61263413510801_2_alg».proof.Defs
import proofs.«167707_j61263413510801_2_alg».proof.Proof.Gen.KernelIdeal.Frame
import proofs.«167707_j61263413510801_2_alg».proof.Proof.LibMatmulNN
import Idealize.ShloMosaic.Lib.Pipeline.Value
import Idealize.ShloMosaic.Lib.ValueIdx
import Idealize.ShloMosaic.Lib.ValueLayout

set_option maxRecDepth 16384

noncomputable section

open scoped BigOperators

namespace Cert.KernelIdeal.Region2

open Cert.KernelIdeal Cert.KernelIdeal.Gen
open Idealize.ShloMosaic Idealize.ShloMosaic.TcCoe Idealize.ShloMosaic.ValueIdx Idealize.SL.Sem
open Idealize.ShloMosaic.Pipeline (Dat)

/-- The decode on whole arrays: entry `(i, j)` is `logistic (∑ₖ hcat[i,k]·w[k,j] + b[0,j])` (`j` ranges over one column). -/
def decode (hcat : S200000x128.Idx → Elt Ideal .f32) (w : S128x1.Idx → Elt Ideal .bf16)
    (b : S1x1.Idx → Elt Ideal .f32) : S200000x1.Idx → Elt Ideal .f32 := fun i =>
  Ideal.logistic (∑ k : Fin 128, hcat (ix2 (i 0) k) * w (ix2 k (i 1)) + b (ix2 0 (i 1)))

/-- The decode at entry `(p, q)`. -/
theorem decode_apply (hcat : S200000x128.Idx → Elt Ideal .f32) (w : S128x1.Idx → Elt Ideal .bf16)
    (b : S1x1.Idx → Elt Ideal .f32) (p : Fin 200000) (q : Fin 1) :
    decode hcat w b (ix2 p q) = Ideal.logistic (∑ k : Fin 128, hcat (ix2 p k) * w (ix2 k q) + b (ix2 0 q)) := rfl

/-- The body's stored value at entry `(p, q)` of a block: the same expression of the loaded blocks. -/
theorem pay_apply (x0 : FVec Ideal S5000x128 .f32) (w0 : FVec Ideal S128x1 .bf16) (b : FVec Ideal S1x1 .f32)
    (p : Fin 5000) (q : Fin 1) :
    k2_pay1 (F := Ideal) x0 w0 b (ix2 p q)
      = Ideal.logistic (∑ k : Fin 128, x0 (ix2 p k) * w0 (ix2 k q) + b (ix2 0 q)) := by
  unfold k2_pay1
  simp only [shapeCast_self]
  have h0 : matmul dot_S5000x128_S128x1_S5000x1_1_0_0_1_n_n none (truncf .bf16 x0 bitsLt_bf16_f32) w0
      (constant (F := Ideal) S5000x1 .f32 0x00000000#32) (ix2 p q) = ∑ k : Fin 128, x0 (ix2 p k) * w0 (ix2 k q) :=
    LibMatmulNN.matmul_zero_apply 5000 128 1 none (truncf .bf16 x0 bitsLt_bf16_f32) w0 p q
  show Ideal.logistic (addf (matmul dot_S5000x128_S128x1_S5000x1_1_0_0_1_n_n none (truncf .bf16 x0 bitsLt_bf16_f32) w0
      (constant (F := Ideal) S5000x1 .f32 0x00000000#32)) (broadcastTo S5000x1 b broadcasts_S1x1_S5000x1) (ix2 p q)) = _
  rw [addf_apply, h0, broadcastTo_1b_ab_apply]

theorem zero_offsets : (![0, 0] : Fin 2 → Nat) = fun _ => 0 := funext fun a => by fin_cases a <;> rfl

/-- The printed index maps over the grid: the row-blocked operand and the output move down one block of rows per point,
    the weight column and the bias stay at block zero. -/
theorem index_maps : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

variable (V : (c : Dev nD) → (b : Ref sig .tc) → Buf (Elt Ideal) ((c : Thread nD τ).loc b))

/-- WHAT POINT `t` WRITES BACK is block `t` of the decode of the arrays as the region finds them. -/
theorem flushed_eq (c : Dev nD) (t : Fin cfg2.N) :
    (dat2 V c).flushed 3 t = ((cfg2.win 3).blk t).view.read (Elt Ideal)
      (decode (V c main_v64) (V c main_v65) (V c main_v66)) := by
  show (cfg2.win 3).cut (grid2.coords t) ((dat2 V c).after 3 t) = _
  rw [after2_3]
  unfold out2_3
  rw [View.canon_unit_zero zero_offsets]
  simp only [View.ld_unit_zero (S := S5000x128) zero_offsets, View.ld_unit_zero (S := S128x1) zero_offsets,
    View.ld_unit_zero (S := S1x1) zero_offsets]
  obtain ⟨e00, e01, e10, e11, e20, e21, e30, e31⟩ := index_maps t
  funext j
  obtain ⟨p, q, rfl⟩ : ∃ (p : Fin 5000) (q : Fin 1), j = ix2 p q := ⟨j 0, j 1, eq_ix2 j⟩
  refine (pay_apply _ _ _ p q).trans ?_
  show _ = decode (V c main_v64) (V c main_v65) (V c main_v66) (((cfg2.win 3).blk t).view.emb (ix2 p q))
  unfold decode
  have h0 : ∀ k : Fin 128, iblk2 V c 0 t (ix2 p k)
      = V c main_v64 (ix2 ((((cfg2.win 3).blk t).view.emb (ix2 p q)) 0) k) := fun k => by
    show V c main_v64 (((cfg2.win 0).blk t).view.emb (ix2 p k)) = _
    refine congrArg (V c main_v64) (funext fun a => Fin.ext ?_)
    match a with
    | ⟨0, _⟩ => show win2_0.index t (0 : Fin 2) * 5000 + 1 * p.val = win2_3.index t (0 : Fin 2) * 5000 + 1 * p.val; omega
    | ⟨1, _⟩ => show win2_0.index t (1 : Fin 2) * 128 + 1 * k.val = k.val; omega
  have h1 : ∀ k : Fin 128, iblk2 V c 1 t (ix2 k q)
      = V c main_v65 (ix2 k ((((cfg2.win 3).blk t).view.emb (ix2 p q)) 1)) := fun k => by
    show V c main_v65 (((cfg2.win 1).blk t).view.emb (ix2 k q)) = _
    refine congrArg (V c main_v65) (funext fun a => Fin.ext ?_)
    match a with
    | ⟨0, _⟩ => show win2_1.index t (0 : Fin 2) * 128 + 1 * k.val = k.val; omega
    | ⟨1, _⟩ => show win2_1.index t (1 : Fin 2) * 1 + 1 * q.val = win2_3.index t (1 : Fin 2) * 1 + 1 * q.val; omega
  have h2 : iblk2 V c 2 t (ix2 (0 : Fin 1) q)
      = V c main_v66 (ix2 (0 : Fin 1) ((((cfg2.win 3).blk t).view.emb (ix2 p q)) 1)) := by
    show V c main_v66 (((cfg2.win 2).blk t).view.emb (ix2 (0 : Fin 1) q)) = _
    refine congrArg (V c main_v66) (funext fun a => Fin.ext ?_)
    match a with
    | ⟨0, _⟩ => show win2_2.index t (0 : Fin 2) * 1 + 1 * 0 = 0; omega
    | ⟨1, _⟩ => show win2_2.index t (1 : Fin 2) * 1 + 1 * q.val = win2_3.index t (1 : Fin 2) * 1 + 1 * q.val; omega
  simp only [h0, h1, h2]

/-- An index of the array is in point `t`'s block iff each coordinate is in the block's range on its axis. -/
theorem mem_blk (t : Fin cfg2.N) (i : S200000x1.Idx) :
    i ∈ ((cfg2.win 3).blk t).view.set ↔ ∀ a : Fin 2, win2_3.index t a * S5000x1.size a ≤ (i a).val
      ∧ (i a).val < win2_3.index t a * S5000x1.size a + S5000x1.size a := by
  show i ∈ ((View.whole main_v67).slice (win2_3.rect t)).set ↔ _
  rw [View.set_slice_whole, Rect.mem_set_unit]
  exact Iff.rfl

/-- THE BLOCKS TILE THE ARRAY: row `r` lies in the block of point `r / 5000`. -/
theorem cover (i : S200000x1.Idx) :
    ∃ t : Fin cfg2.N, (cfg2.win 3).flush t = true ∧ i ∈ ((cfg2.win 3).blk t).view.set := by
  have hi0 : (i 0).val < 200000 := (i 0).isLt
  have hi1 : (i 1).val < 1 := (i 1).isLt
  have hN : grid2.N = 40 := N_2
  have hlt : (i 0).val / 5000 < grid2.N := by rw [hN]; omega
  obtain ⟨-, -, -, -, -, -, e30, e31⟩ := index_maps ⟨(i 0).val / 5000, hlt⟩
  refine ⟨⟨(i 0).val / 5000, hlt⟩, flush2_3 _, ?_⟩
  rw [mem_blk]
  intro a
  match a with
  | ⟨0, _⟩ =>
    show win2_3.index ⟨(i 0).val / 5000, hlt⟩ (0 : Fin 2) * 5000 ≤ (i 0).val
      ∧ (i 0).val < win2_3.index ⟨(i 0).val / 5000, hlt⟩ (0 : Fin 2) * 5000 + 5000
    rw [e30]
    show (i 0).val / 5000 * 5000 ≤ (i 0).val ∧ (i 0).val < (i 0).val / 5000 * 5000 + 5000
    omega
  | ⟨1, _⟩ =>
    show win2_3.index ⟨(i 0).val / 5000, hlt⟩ (1 : Fin 2) * 1 ≤ (i 1).val
      ∧ (i 1).val < win2_3.index ⟨(i 0).val / 5000, hlt⟩ (1 : Fin 2) * 1 + 1
    rw [e31]
    omega

/-- THE ARRAY THE REGION LEAVES is the decode of the arrays it was entered with. -/
theorem final (c : Dev nD) :
    (dat2 V c).arrAt 3 cfg2.N = decode (V c main_v64) (V c main_v65) (V c main_v66) :=
  (dat2 V c).arrAt_eq_of_cover 3 _ (fun t _ => flushed_eq V c t) cover

end Cert.KernelIdeal.Region2

end
-- ==== Proof.Region0.lean ====
/-
  The first dense layer's kernel region, as one function of the arrays it is entered with.

  The region walks the 50000 rows in 25 blocks of 2000. At block `t` the body multiplies the block of the aggregated
  means by the left weights and the block of the node features by the right weights, adds the two products and the
  bias row, and clamps at zero. On the extended reals a change of float format is the identity and each product into a
  zero accumulator is the plain sum over the contracted axis, so entry `(i, j)` of what the region leaves is
  `max ((∑ₖ mean[i,k]·wl[k,j] + ∑ₖ feat[i,k]·wr[k,j]) + b[0,j]) 0`: a function of row `i` of the two row-blocked
  operands alone, so the blocks written back are the restrictions of ONE whole-array function, and they tile the array.
-/
import proofs.«167707_j61263413510801_2_alg».proof.Defs
import proofs.«167707_j61263413510801_2_alg».proof.Proof.Gen.KernelIdeal.Frame
import proofs.«167707_j61263413510801_2_alg».proof.Proof.LibMatmulNN
import Idealize.ShloMosaic.Lib.Pipeline.Value
import Idealize.ShloMosaic.Lib.ValueIdx
import Idealize.ShloMosaic.Lib.ValueLayout

set_option maxRecDepth 16384

noncomputable section

open scoped BigOperators

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat)

/-- The layer on whole arrays: entry `(i, j)` is `max ((∑ₖ mean[i,k]·wl[k,j] + ∑ₖ feat[i,k]·wr[k,j]) + b[0,j]) 0`. -/
def dense (mean feat : S50000x128.Idx → Elt Ideal .f32) (wl wr : S128x128.Idx → Elt Ideal .bf16)
    (b : S1x128.Idx → Elt Ideal .f32) : S50000x128.Idx → Elt Ideal .f32 := fun i =>
  max ((∑ k : Fin 128, mean (ix2 (i 0) k) * wl (ix2 k (i 1)) + ∑ k : Fin 128, feat (ix2 (i 0) k) * wr (ix2 k (i 1)))
    + b (ix2 0 (i 1))) (Ideal.ofBits .f32 0x00000000#32)

/-- The layer at entry `(p, q)`. -/
theorem dense_apply (mean feat : S50000x128.Idx → Elt Ideal .f32) (wl wr : S128x128.Idx → Elt Ideal .bf16)
    (b : S1x128.Idx → Elt Ideal .f32) (p : Fin 50000) (q : Fin 128) :
    dense mean feat wl wr b (ix2 p q)
      = max ((∑ k : Fin 128, mean (ix2 p k) * wl (ix2 k q) + ∑ k : Fin 128, feat (ix2 p k) * wr (ix2 k q)) + b (ix2 0 q))
          (Ideal.ofBits .f32 0x00000000#32) := rfl

/-- The body's stored value at entry `(p, q)` of a block: the same expression of the loaded blocks. -/
theorem pay_apply (x0 x1 : FVec Ideal S2000x128 .f32) (w0 w1 : FVec Ideal S128x128 .bf16) (b : FVec Ideal S1x128 .f32)
    (p : Fin 2000) (q : Fin 128) :
    k0_pay1 (F := Ideal) x0 x1 w0 w1 b (ix2 p q)
      = max ((∑ k : Fin 128, x0 (ix2 p k) * w0 (ix2 k q) + ∑ k : Fin 128, x1 (ix2 p k) * w1 (ix2 k q)) + b (ix2 0 q))
          (Ideal.ofBits .f32 0x00000000#32) := by
  unfold k0_pay1
  simp only [shapeCast_self]
  have h0 : matmul dot_S2000x128_S128x128_S2000x128_1_0_0_1_n_n none (truncf .bf16 x0 bitsLt_bf16_f32) w0
      (constant (F := Ideal) S2000x128 .f32 0x00000000#32) (ix2 p q) = ∑ k : Fin 128, x0 (ix2 p k) * w0 (ix2 k q) :=
    LibMatmulNN.matmul_zero_apply 2000 128 128 none (truncf .bf16 x0 bitsLt_bf16_f32) w0 p q
  have h1 : matmul dot_S2000x128_S128x128_S2000x128_1_0_0_1_n_n none (truncf .bf16 x1 bitsLt_bf16_f32) w1
      (constant (F := Ideal) S2000x128 .f32 0x00000000#32) (ix2 p q) = ∑ k : Fin 128, x1 (ix2 p k) * w1 (ix2 k q) :=
    LibMatmulNN.matmul_zero_apply 2000 128 128 none (truncf .bf16 x1 bitsLt_bf16_f32) w1 p q
  rw [maximumf_apply, addf_apply, addf_apply, h0, h1, broadcastTo_1b_ab_apply]
  rfl

theorem zero_offsets : (![0, 0] : Fin 2 → Nat) = fun _ => 0 := funext fun a => by fin_cases a <;> rfl

/-- The printed index maps over the grid: the two row-blocked operands and the output move down one block of rows per
    point, the weights and the bias stay at block zero. -/
theorem index_maps : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

variable (V : (c : Dev nD) → (b : Ref sig .tc) → Buf (Elt Ideal) ((c : Thread nD τ).loc b))

/-- WHAT POINT `t` WRITES BACK is block `t` of the layer of the arrays as the region finds them. -/
theorem flushed_eq (c : Dev nD) (t : Fin cfg0.N) :
    (dat0 V c).flushed 5 t = ((cfg0.win 5).blk t).view.read (Elt Ideal)
      (dense (V c main_v24) (V c main_arg0) (V c main_v25) (V c main_v26) (V c main_v27)) := by
  show (cfg0.win 5).cut (grid0.coords t) ((dat0 V c).after 5 t) = _
  rw [after0_5]
  unfold out0_5
  rw [View.canon_unit_zero zero_offsets]
  simp only [View.ld_unit_zero (S := S2000x128) zero_offsets, View.ld_unit_zero (S := S128x128) zero_offsets,
    View.ld_unit_zero (S := S1x128) zero_offsets]
  obtain ⟨e00, e01, e10, e11, e20, e21, e30, e31, e40, e41, e50, e51⟩ := index_maps t
  funext j
  obtain ⟨p, q, rfl⟩ : ∃ (p : Fin 2000) (q : Fin 128), j = ix2 p q := ⟨j 0, j 1, eq_ix2 j⟩
  refine (pay_apply _ _ _ _ _ p q).trans ?_
  show _ = dense (V c main_v24) (V c main_arg0) (V c main_v25) (V c main_v26) (V c main_v27)
    (((cfg0.win 5).blk t).view.emb (ix2 p q))
  unfold dense
  have h0 : ∀ k : Fin 128, iblk0 V c 0 t (ix2 p k)
      = V c main_v24 (ix2 ((((cfg0.win 5).blk t).view.emb (ix2 p q)) 0) k) := fun k => by
    show V c main_v24 (((cfg0.win 0).blk t).view.emb (ix2 p k)) = _
    refine congrArg (V c main_v24) (funext fun a => Fin.ext ?_)
    match a with
    | ⟨0, _⟩ => show win0_0.index t (0 : Fin 2) * 2000 + 1 * p.val = win0_5.index t (0 : Fin 2) * 2000 + 1 * p.val; omega
    | ⟨1, _⟩ => show win0_0.index t (1 : Fin 2) * 128 + 1 * k.val = k.val; omega
  have h1 : ∀ k : Fin 128, iblk0 V c 1 t (ix2 p k)
      = V c main_arg0 (ix2 ((((cfg0.win 5).blk t).view.emb (ix2 p q)) 0) k) := fun k => by
    show V c main_arg0 (((cfg0.win 1).blk t).view.emb (ix2 p k)) = _
    refine congrArg (V c main_arg0) (funext fun a => Fin.ext ?_)
    match a with
    | ⟨0, _⟩ => show win0_1.index t (0 : Fin 2) * 2000 + 1 * p.val = win0_5.index t (0 : Fin 2) * 2000 + 1 * p.val; omega
    | ⟨1, _⟩ => show win0_1.index t (1 : Fin 2) * 128 + 1 * k.val = k.val; omega
  have h2 : ∀ k : Fin 128, iblk0 V c 2 t (ix2 k q)
      = V c main_v25 (ix2 k ((((cfg0.win 5).blk t).view.emb (ix2 p q)) 1)) := fun k => by
    show V c main_v25 (((cfg0.win 2).blk t).view.emb (ix2 k q)) = _
    refine congrArg (V c main_v25) (funext fun a => Fin.ext ?_)
    match a with
    | ⟨0, _⟩ => show win0_2.index t (0 : Fin 2) * 128 + 1 * k.val = k.val; omega
    | ⟨1, _⟩ => show win0_2.index t (1 : Fin 2) * 128 + 1 * q.val = win0_5.index t (1 : Fin 2) * 128 + 1 * q.val; omega
  have h3 : ∀ k : Fin 128, iblk0 V c 3 t (ix2 k q)
      = V c main_v26 (ix2 k ((((cfg0.win 5).blk t).view.emb (ix2 p q)) 1)) := fun k => by
    show V c main_v26 (((cfg0.win 3).blk t).view.emb (ix2 k q)) = _
    refine congrArg (V c main_v26) (funext fun a => Fin.ext ?_)
    match a with
    | ⟨0, _⟩ => show win0_3.index t (0 : Fin 2) * 128 + 1 * k.val = k.val; omega
    | ⟨1, _⟩ => show win0_3.index t (1 : Fin 2) * 128 + 1 * q.val = win0_5.index t (1 : Fin 2) * 128 + 1 * q.val; omega
  have h4 : iblk0 V c 4 t (ix2 (0 : Fin 1) q)
      = V c main_v27 (ix2 (0 : Fin 1) ((((cfg0.win 5).blk t).view.emb (ix2 p q)) 1)) := by
    show V c main_v27 (((cfg0.win 4).blk t).view.emb (ix2 (0 : Fin 1) q)) = _
    refine congrArg (V c main_v27) (funext fun a => Fin.ext ?_)
    match a with
    | ⟨0, _⟩ => show win0_4.index t (0 : Fin 2) * 1 + 1 * 0 = 0; omega
    | ⟨1, _⟩ => show win0_4.index t (1 : Fin 2) * 128 + 1 * q.val = win0_5.index t (1 : Fin 2) * 128 + 1 * q.val; omega
  simp only [h0, h1, h2, h3, h4]

/-- An index of the array is in point `t`'s block iff each coordinate is in the block's range on its axis. -/
theorem mem_blk (t : Fin cfg0.N) (i : S50000x128.Idx) :
    i ∈ ((cfg0.win 5).blk t).view.set ↔ ∀ a : Fin 2, win0_5.index t a * S2000x128.size a ≤ (i a).val
      ∧ (i a).val < win0_5.index t a * S2000x128.size a + S2000x128.size a := by
  show i ∈ ((View.whole main_v28).slice (win0_5.rect t)).set ↔ _
  rw [View.set_slice_whole, Rect.mem_set_unit]
  exact Iff.rfl

/-- THE BLOCKS TILE THE ARRAY: row `r` lies in the block of point `r / 2000`. -/
theorem cover (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  have hN : grid0.N = 25 := N_0
  have hlt : (i 0).val / 2000 < grid0.N := by rw [hN]; omega
  obtain ⟨-, -, -, -, -, -, -, -, -, -, e50, e51⟩ := index_maps ⟨(i 0).val / 2000, hlt⟩
  refine ⟨⟨(i 0).val / 2000, hlt⟩, flush0_5 _, ?_⟩
  rw [mem_blk]
  intro a
  match a with
  | ⟨0, _⟩ =>
    show win0_5.index ⟨(i 0).val / 2000, hlt⟩ (0 : Fin 2) * 2000 ≤ (i 0).val
      ∧ (i 0).val < win0_5.index ⟨(i 0).val / 2000, hlt⟩ (0 : Fin 2) * 2000 + 2000
    rw [e50]
    show (i 0).val / 2000 * 2000 ≤ (i 0).val ∧ (i 0).val < (i 0).val / 2000 * 2000 + 2000
    omega
  | ⟨1, _⟩ =>
    show win0_5.index ⟨(i 0).val / 2000, hlt⟩ (1 : Fin 2) * 128 ≤ (i 1).val
      ∧ (i 1).val < win0_5.index ⟨(i 0).val / 2000, hlt⟩ (1 : Fin 2) * 128 + 128
    rw [e51]
    omega

/-- THE ARRAY THE REGION LEAVES is the layer of the arrays it was entered with. -/
theorem final (c : Dev nD) :
    (dat0 V c).arrAt 5 cfg0.N = dense (V c main_v24) (V c main_arg0) (V c main_v25) (V c main_v26) (V c main_v27) :=
  (dat0 V c).arrAt_eq_of_cover 5 _ (fun t _ => flushed_eq V c t) cover

end Cert.KernelIdeal.Region0

end
-- ==== Proof.Region1.lean ====
/-
  The second dense layer's kernel region, as one function of the arrays it is entered with.

  Same walk as the first layer: 25 blocks of 2000 rows. At block `t` the body multiplies the block of the aggregated
  means by the left weights and the block of the hidden features by the right weights (128 by 64 each), adds the two
  products and the bias row; there is no clamp. On the extended reals entry `(i, j)` of what the region leaves is
  `(∑ₖ mean[i,k]·wl[k,j] + ∑ₖ feat[i,k]·wr[k,j]) + b[0,j]`, a function of row `i` of the row-blocked operands alone, so
  the blocks written back are the restrictions of ONE whole-array function, and they tile the array.
-/
import proofs.«167707_j61263413510801_2_alg».proof.Defs
import proofs.«167707_j61263413510801_2_alg».proof.Proof.Gen.KernelIdeal.Frame
import proofs.«167707_j61263413510801_2_alg».proof.Proof.LibMatmulNN
import Idealize.ShloMosaic.Lib.Pipeline.Value
import Idealize.ShloMosaic.Lib.ValueIdx
import Idealize.ShloMosaic.Lib.ValueLayout

set_option maxRecDepth 16384

noncomputable section

open scoped BigOperators

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat)

/-- The layer on whole arrays: entry `(i, j)` is `(∑ₖ mean[i,k]·wl[k,j] + ∑ₖ feat[i,k]·wr[k,j]) + b[0,j]`. -/
def dense (mean feat : S50000x128.Idx → Elt Ideal .f32) (wl wr : S128x64.Idx → Elt Ideal .bf16)
    (b : S1x64.Idx → Elt Ideal .f32) : S50000x64.Idx → Elt Ideal .f32 := fun i =>
  (∑ k : Fin 128, mean (ix2 (i 0) k) * wl (ix2 k (i 1)) + ∑ k : Fin 128, feat (ix2 (i 0) k) * wr (ix2 k (i 1)))
    + b (ix2 0 (i 1))

/-- The layer at entry `(p, q)`. -/
theorem dense_apply (mean feat : S50000x128.Idx → Elt Ideal .f32) (wl wr : S128x64.Idx → Elt Ideal .bf16)
    (b : S1x64.Idx → Elt Ideal .f32) (p : Fin 50000) (q : Fin 64) :
    dense mean feat wl wr b (ix2 p q)
      = (∑ k : Fin 128, mean (ix2 p k) * wl (ix2 k q) + ∑ k : Fin 128, feat (ix2 p k) * wr (ix2 k q)) + b (ix2 0 q) := rfl

/-- The body's stored value at entry `(p, q)` of a block: the same expression of the loaded blocks. -/
theorem pay_apply (x0 x1 : FVec Ideal S2000x128 .f32) (w0 w1 : FVec Ideal S128x64 .bf16) (b : FVec Ideal S1x64 .f32)
    (p : Fin 2000) (q : Fin 64) :
    k1_pay1 (F := Ideal) x0 x1 w0 w1 b (ix2 p q)
      = (∑ k : Fin 128, x0 (ix2 p k) * w0 (ix2 k q) + ∑ k : Fin 128, x1 (ix2 p k) * w1 (ix2 k q)) + b (ix2 0 q) := by
  unfold k1_pay1
  simp only [shapeCast_self]
  have h0 : matmul dot_S2000x128_S128x64_S2000x64_1_0_0_1_n_n none (truncf .bf16 x0 bitsLt_bf16_f32) w0
      (constant (F := Ideal) S2000x64 .f32 0x00000000#32) (ix2 p q) = ∑ k : Fin 128, x0 (ix2 p k) * w0 (ix2 k q) :=
    LibMatmulNN.matmul_zero_apply 2000 128 64 none (truncf .bf16 x0 bitsLt_bf16_f32) w0 p q
  have h1 : matmul dot_S2000x128_S128x64_S2000x64_1_0_0_1_n_n none (truncf .bf16 x1 bitsLt_bf16_f32) w1
      (constant (F := Ideal) S2000x64 .f32 0x00000000#32) (ix2 p q) = ∑ k : Fin 128, x1 (ix2 p k) * w1 (ix2 k q) :=
    LibMatmulNN.matmul_zero_apply 2000 128 64 none (truncf .bf16 x1 bitsLt_bf16_f32) w1 p q
  rw [addf_apply, addf_apply, h0, h1, broadcastTo_1b_ab_apply]

theorem zero_offsets : (![0, 0] : Fin 2 → Nat) = fun _ => 0 := funext fun a => by fin_cases a <;> rfl

/-- The printed index maps over the grid: the two row-blocked operands and the output move down one block of rows per
    point, the weights and the bias stay at block zero. -/
theorem index_maps : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

variable (V : (c : Dev nD) → (b : Ref sig .tc) → Buf (Elt Ideal) ((c : Thread nD τ).loc b))

/-- WHAT POINT `t` WRITES BACK is block `t` of the layer of the arrays as the region finds them. -/
theorem flushed_eq (c : Dev nD) (t : Fin cfg1.N) :
    (dat1 V c).flushed 5 t = ((cfg1.win 5).blk t).view.read (Elt Ideal)
      (dense (V c main_v41) (V c main_v28) (V c main_v42) (V c main_v43) (V c main_v44)) := by
  show (cfg1.win 5).cut (grid1.coords t) ((dat1 V c).after 5 t) = _
  rw [after1_5]
  unfold out1_5
  rw [View.canon_unit_zero zero_offsets]
  simp only [View.ld_unit_zero (S := S2000x128) zero_offsets, View.ld_unit_zero (S := S128x64) zero_offsets,
    View.ld_unit_zero (S := S1x64) zero_offsets]
  obtain ⟨e00, e01, e10, e11, e20, e21, e30, e31, e40, e41, e50, e51⟩ := index_maps t
  funext j
  obtain ⟨p, q, rfl⟩ : ∃ (p : Fin 2000) (q : Fin 64), j = ix2 p q := ⟨j 0, j 1, eq_ix2 j⟩
  refine (pay_apply _ _ _ _ _ p q).trans ?_
  show _ = dense (V c main_v41) (V c main_v28) (V c main_v42) (V c main_v43) (V c main_v44)
    (((cfg1.win 5).blk t).view.emb (ix2 p q))
  unfold dense
  have h0 : ∀ k : Fin 128, iblk1 V c 0 t (ix2 p k)
      = V c main_v41 (ix2 ((((cfg1.win 5).blk t).view.emb (ix2 p q)) 0) k) := fun k => by
    show V c main_v41 (((cfg1.win 0).blk t).view.emb (ix2 p k)) = _
    refine congrArg (V c main_v41) (funext fun a => Fin.ext ?_)
    match a with
    | ⟨0, _⟩ => show win1_0.index t (0 : Fin 2) * 2000 + 1 * p.val = win1_5.index t (0 : Fin 2) * 2000 + 1 * p.val; omega
    | ⟨1, _⟩ => show win1_0.index t (1 : Fin 2) * 128 + 1 * k.val = k.val; omega
  have h1 : ∀ k : Fin 128, iblk1 V c 1 t (ix2 p k)
      = V c main_v28 (ix2 ((((cfg1.win 5).blk t).view.emb (ix2 p q)) 0) k) := fun k => by
    show V c main_v28 (((cfg1.win 1).blk t).view.emb (ix2 p k)) = _
    refine congrArg (V c main_v28) (funext fun a => Fin.ext ?_)
    match a with
    | ⟨0, _⟩ => show win1_1.index t (0 : Fin 2) * 2000 + 1 * p.val = win1_5.index t (0 : Fin 2) * 2000 + 1 * p.val; omega
    | ⟨1, _⟩ => show win1_1.index t (1 : Fin 2) * 128 + 1 * k.val = k.val; omega
  have h2 : ∀ k : Fin 128, iblk1 V c 2 t (ix2 k q)
      = V c main_v42 (ix2 k ((((cfg1.win 5).blk t).view.emb (ix2 p q)) 1)) := fun k => by
    show V c main_v42 (((cfg1.win 2).blk t).view.emb (ix2 k q)) = _
    refine congrArg (V c main_v42) (funext fun a => Fin.ext ?_)
    match a with
    | ⟨0, _⟩ => show win1_2.index t (0 : Fin 2) * 128 + 1 * k.val = k.val; omega
    | ⟨1, _⟩ => show win1_2.index t (1 : Fin 2) * 64 + 1 * q.val = win1_5.index t (1 : Fin 2) * 64 + 1 * q.val; omega
  have h3 : ∀ k : Fin 128, iblk1 V c 3 t (ix2 k q)
      = V c main_v43 (ix2 k ((((cfg1.win 5).blk t).view.emb (ix2 p q)) 1)) := fun k => by
    show V c main_v43 (((cfg1.win 3).blk t).view.emb (ix2 k q)) = _
    refine congrArg (V c main_v43) (funext fun a => Fin.ext ?_)
    match a with
    | ⟨0, _⟩ => show win1_3.index t (0 : Fin 2) * 128 + 1 * k.val = k.val; omega
    | ⟨1, _⟩ => show win1_3.index t (1 : Fin 2) * 64 + 1 * q.val = win1_5.index t (1 : Fin 2) * 64 + 1 * q.val; omega
  have h4 : iblk1 V c 4 t (ix2 (0 : Fin 1) q)
      = V c main_v44 (ix2 (0 : Fin 1) ((((cfg1.win 5).blk t).view.emb (ix2 p q)) 1)) := by
    show V c main_v44 (((cfg1.win 4).blk t).view.emb (ix2 (0 : Fin 1) q)) = _
    refine congrArg (V c main_v44) (funext fun a => Fin.ext ?_)
    match a with
    | ⟨0, _⟩ => show win1_4.index t (0 : Fin 2) * 1 + 1 * 0 = 0; omega
    | ⟨1, _⟩ => show win1_4.index t (1 : Fin 2) * 64 + 1 * q.val = win1_5.index t (1 : Fin 2) * 64 + 1 * q.val; omega
  simp only [h0, h1, h2, h3, h4]

/-- An index of the array is in point `t`'s block iff each coordinate is in the block's range on its axis. -/
theorem mem_blk (t : Fin cfg1.N) (i : S50000x64.Idx) :
    i ∈ ((cfg1.win 5).blk t).view.set ↔ ∀ a : Fin 2, win1_5.index t a * S2000x64.size a ≤ (i a).val
      ∧ (i a).val < win1_5.index t a * S2000x64.size a + S2000x64.size a := by
  show i ∈ ((View.whole main_v45).slice (win1_5.rect t)).set ↔ _
  rw [View.set_slice_whole, Rect.mem_set_unit]
  exact Iff.rfl

/-- THE BLOCKS TILE THE ARRAY: row `r` lies in the block of point `r / 2000`. -/
theorem cover (i : S50000x64.Idx) :
    ∃ t : Fin cfg1.N, (cfg1.win 5).flush t = true ∧ i ∈ ((cfg1.win 5).blk t).view.set := by
  have hi0 : (i 0).val < 50000 := (i 0).isLt
  have hi1 : (i 1).val < 64 := (i 1).isLt
  have hN : grid1.N = 25 := N_1
  have hlt : (i 0).val / 2000 < grid1.N := by rw [hN]; omega
  obtain ⟨-, -, -, -, -, -, -, -, -, -, e50, e51⟩ := index_maps ⟨(i 0).val / 2000, hlt⟩
  refine ⟨⟨(i 0).val / 2000, hlt⟩, flush1_5 _, ?_⟩
  rw [mem_blk]
  intro a
  match a with
  | ⟨0, _⟩ =>
    show win1_5.index ⟨(i 0).val / 2000, hlt⟩ (0 : Fin 2) * 2000 ≤ (i 0).val
      ∧ (i 0).val < win1_5.index ⟨(i 0).val / 2000, hlt⟩ (0 : Fin 2) * 2000 + 2000
    rw [e50]
    show (i 0).val / 2000 * 2000 ≤ (i 0).val ∧ (i 0).val < (i 0).val / 2000 * 2000 + 2000
    omega
  | ⟨1, _⟩ =>
    show win1_5.index ⟨(i 0).val / 2000, hlt⟩ (1 : Fin 2) * 64 ≤ (i 1).val
      ∧ (i 1).val < win1_5.index ⟨(i 0).val / 2000, hlt⟩ (1 : Fin 2) * 64 + 64
    rw [e51]
    omega

/-- THE ARRAY THE REGION LEAVES is the layer of the arrays it was entered with. -/
theorem final (c : Dev nD) :
    (dat1 V c).arrAt 5 cfg1.N = dense (V c main_v41) (V c main_v28) (V c main_v42) (V c main_v43) (V c main_v44) :=
  (dat1 V c).arrAt_eq_of_cover 5 _ (fun t _ => flushed_eq V c t) cover

end Cert.KernelIdeal.Region1

end
-- ==== Proof.LibMeanAlgebra.lean ====
/-
  The algebra of a mean-aggregating graph layer on the extended reals.

  Three facts, none about any program:
  * a finite sum of nonnegative reals, taken in the extended reals, is a nonnegative real — so a node's in-degree,
    counted by adding a one for every incoming edge, is a nonnegative real, and its maximum with one is a positive real;
  * dividing every entry of a row by a positive real `y` BEFORE contracting the row with a column gives the
    contraction multiplied by `1 / y` AFTER: `∑ₖ (aₖ / y) · wₖ = (∑ₖ aₖ · wₖ) · (1 / y)`. On the extended reals this
    needs no finiteness of `a` or `w`: the reciprocal of a positive real is a nonnegative real different from `⊤`, and
    multiplication by such a factor distributes over every sum of extended reals, infinite terms included;
  * the float pattern of `1.0` denotes the real one.
-/
import Idealize.ShloMosaic.PureOps.Ideal.Laws

noncomputable section

open scoped BigOperators

namespace LibMeanAlgebra

open Idealize.ShloMosaic

/-- The pattern of `1.0` denotes one. -/
theorem ofBits_one : Ideal.ofBits .f32 0x3F800000#32 = 1 := by
  simp [Ideal.ofBits, Ideal.ieee, -EReal.coe_mul]; norm_num

/-- A finite sum of nonnegative reals, taken in the extended reals, is a nonnegative real. -/
theorem sum_real_nonneg {ι : Type} (s : Finset ι) (f : ι → EReal)
    (hf : ∀ j ∈ s, ∃ r : ℝ, 0 ≤ r ∧ f j = (r : EReal)) :
    ∃ r : ℝ, 0 ≤ r ∧ ∑ j ∈ s, f j = (r : EReal) := by
  classical
  induction s using Finset.induction_on with
  | empty => exact ⟨0, le_refl 0, by simp⟩
  | insert a s ha ih =>
    obtain ⟨r, hr, e⟩ := hf a (Finset.mem_insert_self a s)
    obtain ⟨r', hr', e'⟩ := ih (fun j hj => hf j (Finset.mem_insert_of_mem hj))
    exact ⟨r + r', add_nonneg hr hr', by rw [Finset.sum_insert ha, e, e', EReal.coe_add]⟩

/-- COUNTING BY SCATTER: adding a one into a zero array for every update that lands on an element leaves, at every
    element, a nonnegative real (the number of updates that landed there). -/
theorem scatter_ones_real {s si su : Shape} (d : ScatterDims s si su) {w : Nat} (x : s.Idx → EReal) (idx : IVec si w)
    (upd : su.Idx → EReal) (i : s.Idx) (hx : x i = 0) (hu : ∀ j, upd j = 1) :
    ∃ r : ℝ, 0 ≤ r ∧ Ideal.hostScatterAdd d x idx upd i = (r : EReal) := by
  obtain ⟨r, hr, e⟩ := sum_real_nonneg (Finset.univ.filter fun j => d.resultIdx? j idx = some i) upd
    (fun j _ => ⟨1, zero_le_one, by rw [hu j, EReal.coe_one]⟩)
  exact ⟨r, hr, by unfold Ideal.hostScatterAdd; rw [hx, zero_add, e]⟩

/-- The maximum of a nonnegative real with one is a positive real. -/
theorem max_one_pos {z one : EReal} (hone : one = 1) (hz : ∃ r : ℝ, 0 ≤ r ∧ z = (r : EReal)) :
    ∃ y : ℝ, 0 < y ∧ max z one = (y : EReal) := by
  obtain ⟨r, _, rfl⟩ := hz
  refine ⟨max r 1, lt_of_lt_of_le zero_lt_one (le_max_right r 1), ?_⟩
  rw [hone, ← EReal.coe_one]
  exact (EReal.coe_strictMono.monotone.map_max).symm

/-- Multiplication by a nonnegative real distributes over a finite sum of extended reals. -/
theorem sum_mul_real {ι : Type} (s : Finset ι) (f : ι → EReal) {c : EReal} (hc : 0 ≤ c) (hct : c ≠ ⊤) :
    ∑ k ∈ s, f k * c = (∑ k ∈ s, f k) * c := by
  classical
  induction s using Finset.induction_on with
  | empty => simp
  | insert j s hj ih =>
    rw [Finset.sum_insert hj, Finset.sum_insert hj, ih, EReal.right_distrib_of_nonneg_of_ne_top hc hct]

/-- THE MEAN COMMUTES WITH THE LINEAR MAP: dividing a row by a positive real before contracting it with a column is
    multiplying the contraction by the reciprocal afterwards. `one` is any spelling of the real one. -/
theorem sum_div_mul {ι : Type} [Fintype ι] (a w : ι → EReal) {one : EReal} (hone : one = 1) {y : ℝ} (hy : 0 < y) :
    ∑ k, Ideal.div (a k) (y : EReal) * w k = (∑ k, a k * w k) * Ideal.div one (y : EReal) := by
  have hy0 : y ≠ 0 := ne_of_gt hy
  have hc : (0 : EReal) ≤ ((1 / y : ℝ) : EReal) := by exact_mod_cast (one_div_pos.mpr hy).le
  rw [hone, Ideal.div_coe hy0 1, one_mul, ← sum_mul_real Finset.univ _ hc (EReal.coe_ne_top _)]
  refine Finset.sum_congr rfl fun k _ => ?_
  rw [Ideal.div_coe hy0, mul_right_comm]

end LibMeanAlgebra

end
-- ==== Proof.LibHostIdeal.lean ====
/-
  Two host operations on the extended reals, as the exact operations they are.

  At the ideal reading a float is an extended real and every operation is the exact one. For an operation the host applies
  through the float instance — the accumulating scatter (several updates may land on one element) and the quotient — this
  is the statement that the instance's field is the exact operation. Stated once over arbitrary operands, it is a
  rewriting rule for terms whose operands are long: the operation's name is replaced by the exact operation without
  the operands being looked into.
-/
import Idealize.ShloMosaic.PureOps.Ideal.Laws

noncomputable section

namespace LibHostIdeal

open Idealize.ShloMosaic

/-- On the extended reals the host's accumulating scatter is the exact one: each operand element plus the sum of the
    updates that land on it. -/
theorem scatterAdd_ideal {s si u : Shape} {φ : FTy} {w : Nat} (d : ScatterDims s si u) (x : FVec Ideal s φ) (idx : IVec si w)
    (upd : FVec Ideal u φ) : Host.scatterAdd d x idx upd = Ideal.hostScatterAdd d x idx upd := rfl

/-- On the extended reals the host's quotient of two arrays is, at each element, the exact quotient of the two elements. -/
theorem divf_ideal_apply {s : Shape} {φ : FTy} (a b : FVec Ideal s φ) (i : s.Idx) :
    Host.divf a b i = Ideal.div (a i) (b i) := rfl

end LibHostIdeal

end
-- ==== Proof.RefLayers.lean ====
/-
  The reference's three layers read at an index, on the extended reals.

  Each node's in-degree is counted by adding a one for every incoming edge, so it is a nonnegative real, and its maximum
  with one is a positive real: the divisor of the mean is never zero or infinite. With the host's matrix products read as
  plain sums over the contracted axis and its broadcasts read at their source element:
  * first layer, entry (p, q): `max (((∑ₖ (agg[p,k] / cnt[p]) · Wl[k,q]) + bl[q]) + ∑ₖ x[p,k] · Wr[k,q]) 0`;
  * second layer, entry (p, q): `((∑ₖ (agg'[p,k] / cnt[p]) · Wl'[k,q]) + bl'[q]) + ∑ₖ h[p,k] · Wr'[k,q]`;
  * decode, entry (p, q): `1 / (1 + exp (−(∑ₖ hcat[p,k] · w[k,q] + b[0])))`.
  The aggregated sums, the counts and the gathered pair features are left as the named stages they are.
-/
import proofs.«167707_j61263413510801_2_alg».proof.Defs
import proofs.«167707_j61263413510801_2_alg».proof.Proof.Gen.ReferenceIdeal.Read
import proofs.«167707_j61263413510801_2_alg».proof.Proof.LibMeanAlgebra
import proofs.«167707_j61263413510801_2_alg».proof.Proof.LibHostIdeal

set_option maxRecDepth 16384

noncomputable section

open scoped BigOperators

namespace Cert.ReferenceIdeal.Layers

open Cert.ReferenceIdeal Cert.ReferenceIdeal.Read
open Idealize.ShloMosaic Idealize.ShloMosaic.ValueIdx

/-- THE DIVISOR OF THE MEAN: a node's count of incoming edges, clamped below by one, is a positive real. -/
theorem count_pos (x1 : (⟨S2x800000, .i32⟩ : BufTy).Contents (Elt Ideal)) (p : Fin 50000) :
    ∃ y : ℝ, 0 < y ∧ val_main_v19 (F := Ideal) x1 (ix1 p) = (y : EReal) := by
  rw [val_main_v19_apply, Ideal.maximumf_def]
  refine LibMeanAlgebra.max_one_pos ?_ ?_
  · rw [val_main_v18_apply, val_main_cst_3_apply, Ideal.ofBits_def]; exact LibMeanAlgebra.ofBits_one
  · unfold val_main_v17
    rw [LibHostIdeal.scatterAdd_ideal]
    refine LibMeanAlgebra.scatter_ones_real _ _ _ _ _ ?_ ?_
    · rw [val_main_v15_apply, val_main_cst_2_apply, Ideal.ofBits_def]; exact Ideal.ofBits_zero_f32
    · intro j; rw [val_main_v14_apply, val_main_cst_1_apply, Ideal.ofBits_def]; exact LibMeanAlgebra.ofBits_one

/-- The ones the counts are clamped against are the real one. -/
theorem ones_apply (i : S50000.Idx) : val_main_v18 (F := Ideal) i = 1 := by
  rw [val_main_v18_apply, val_main_cst_3_apply, Ideal.ofBits_def]; exact LibMeanAlgebra.ofBits_one

/-- The second layer recounts the same edges: its divisor is the first layer's. -/
theorem count_again (x1 : (⟨S2x800000, .i32⟩ : BufTy).Contents (Elt Ideal)) :
    val_main_v45 (F := Ideal) x1 = val_main_v19 (F := Ideal) x1 := rfl

/-- The first layer's output at entry `(p, q)`. -/
theorem hidden_apply (x0 : (⟨S50000x128, .f32⟩ : BufTy).Contents (Elt Ideal)) (x1 : (⟨S2x800000, .i32⟩ : BufTy).Contents (Elt Ideal))
    (x3 : (⟨S128x128, .f32⟩ : BufTy).Contents (Elt Ideal)) (x4 : (⟨S128, .f32⟩ : BufTy).Contents (Elt Ideal))
    (x5 : (⟨S128x128, .f32⟩ : BufTy).Contents (Elt Ideal)) (p : Fin 50000) (q : Fin 128) :
    val_main_v29 (F := Ideal) x0 x1 x3 x4 x5 (ix2 p q)
      = max (((∑ k : Fin 128, Ideal.div (val_main_v13 (F := Ideal) x0 x1 (ix2 p k)) (val_main_v19 (F := Ideal) x1 (ix1 p)) * x3 (ix2 k q))
              + x4 (ix1 q)) + ∑ k : Fin 128, x0 (ix2 p k) * x5 (ix2 k q)) (Ideal.ofBits .f32 0x00000000#32) := by
  have el : ∀ k : Fin 128, lidx_main_v23 (ix2 p q) k = ix2 p k := fun k => funext fun a => Fin.ext (by
    match a with | ⟨0, _⟩ => rfl | ⟨1, _⟩ => rfl)
  have er : ∀ k : Fin 128, ridx_main_v23 (ix2 p q) k = ix2 k q := fun k => funext fun a => Fin.ext (by
    match a with | ⟨0, _⟩ => rfl | ⟨1, _⟩ => rfl)
  have el' : ∀ k : Fin 128, lidx_main_v27 (ix2 p q) k = ix2 p k := fun k => funext fun a => Fin.ext (by
    match a with | ⟨0, _⟩ => rfl | ⟨1, _⟩ => rfl)
  have er' : ∀ k : Fin 128, ridx_main_v27 (ix2 p q) k = ix2 k q := fun k => funext fun a => Fin.ext (by
    match a with | ⟨0, _⟩ => rfl | ⟨1, _⟩ => rfl)
  have ec : ∀ k : Fin 128, idx_main_v20 (idx_main_v21 (ix2 p k)) = ix1 p := fun k => funext fun a => Fin.ext (by
    match a with | ⟨0, _⟩ => rfl)
  have eb : idx_main_v24 (idx_main_v25 (ix2 p q)) = ix1 q := funext fun a => Fin.ext (by
    match a with | ⟨0, _⟩ => rfl)
  rw [val_main_v29_apply, val_main_v28_apply, val_main_v26_apply, val_main_v23_apply, val_main_v27_apply, val_main_v25_apply,
    val_main_v24_apply, val_main_call0_v0_apply, val_main_call0_cst_apply, eb,
    Ideal.maximumf_def, Ideal.addf_def, Ideal.addf_def, Ideal.ofBits_def]
  have s1 : ∑ k : Fin 128, val_main_v22 (F := Ideal) x0 x1 (lidx_main_v23 (ix2 p q) k) * x3 (ridx_main_v23 (ix2 p q) k)
      = ∑ k : Fin 128, Ideal.div (val_main_v13 (F := Ideal) x0 x1 (ix2 p k)) (val_main_v19 (F := Ideal) x1 (ix1 p)) * x3 (ix2 k q) :=
    Finset.sum_congr rfl fun k _ => by
      rw [el k, er k, val_main_v22_apply, val_main_v21_apply, val_main_v20_apply, ec k, Ideal.hostDivf_def]
  have s2 : ∑ k : Fin 128, x0 (lidx_main_v27 (ix2 p q) k) * x5 (ridx_main_v27 (ix2 p q) k)
      = ∑ k : Fin 128, x0 (ix2 p k) * x5 (ix2 k q) :=
    Finset.sum_congr rfl fun k _ => by rw [el' k, er' k]
  rw [s1, s2]

/-- The second layer's output at entry `(p, q)`. -/
theorem embed_apply (x0 : (⟨S50000x128, .f32⟩ : BufTy).Contents (Elt Ideal)) (x1 : (⟨S2x800000, .i32⟩ : BufTy).Contents (Elt Ideal))
    (x3 : (⟨S128x128, .f32⟩ : BufTy).Contents (Elt Ideal)) (x4 : (⟨S128, .f32⟩ : BufTy).Contents (Elt Ideal))
    (x5 : (⟨S128x128, .f32⟩ : BufTy).Contents (Elt Ideal)) (x6 : (⟨S128x64, .f32⟩ : BufTy).Contents (Elt Ideal))
    (x7 : (⟨S64, .f32⟩ : BufTy).Contents (Elt Ideal)) (x8 : (⟨S128x64, .f32⟩ : BufTy).Contents (Elt Ideal)) (p : Fin 50000) (q : Fin 64) :
    val_main_v54 (F := Ideal) x0 x1 x3 x4 x5 x6 x7 x8 (ix2 p q)
      = ((∑ k : Fin 128, Ideal.div (val_main_v39 (F := Ideal) x0 x1 x3 x4 x5 (ix2 p k)) (val_main_v19 (F := Ideal) x1 (ix1 p)) * x6 (ix2 k q))
              + x7 (ix1 q)) + ∑ k : Fin 128, val_main_v29 (F := Ideal) x0 x1 x3 x4 x5 (ix2 p k) * x8 (ix2 k q) := by
  have el : ∀ k : Fin 128, lidx_main_v49 (ix2 p q) k = ix2 p k := fun k => funext fun a => Fin.ext (by
    match a with | ⟨0, _⟩ => rfl | ⟨1, _⟩ => rfl)
  have er : ∀ k : Fin 128, ridx_main_v49 (ix2 p q) k = ix2 k q := fun k => funext fun a => Fin.ext (by
    match a with | ⟨0, _⟩ => rfl | ⟨1, _⟩ => rfl)
  have el' : ∀ k : Fin 128, lidx_main_v53 (ix2 p q) k = ix2 p k := fun k => funext fun a => Fin.ext (by
    match a with | ⟨0, _⟩ => rfl | ⟨1, _⟩ => rfl)
  have er' : ∀ k : Fin 128, ridx_main_v53 (ix2 p q) k = ix2 k q := fun k => funext fun a => Fin.ext (by
    match a with | ⟨0, _⟩ => rfl | ⟨1, _⟩ => rfl)
  have ec : ∀ k : Fin 128, idx_main_v46 (idx_main_v47 (ix2 p k)) = ix1 p := fun k => funext fun a => Fin.ext (by
    match a with | ⟨0, _⟩ => rfl)
  have eb : idx_main_v50 (idx_main_v51 (ix2 p q)) = ix1 q := funext fun a => Fin.ext (by
    match a with | ⟨0, _⟩ => rfl)
  rw [val_main_v54_apply, val_main_v52_apply, val_main_v49_apply, val_main_v53_apply, val_main_v51_apply, val_main_v50_apply, eb,
    Ideal.addf_def, Ideal.addf_def]
  have s1 : ∑ k : Fin 128, val_main_v48 (F := Ideal) x0 x1 x3 x4 x5 (lidx_main_v49 (ix2 p q) k) * x6 (ridx_main_v49 (ix2 p q) k)
      = ∑ k : Fin 128, Ideal.div (val_main_v39 (F := Ideal) x0 x1 x3 x4 x5 (ix2 p k)) (val_main_v19 (F := Ideal) x1 (ix1 p)) * x6 (ix2 k q) :=
    Finset.sum_congr rfl fun k _ => by
      rw [el k, er k, val_main_v48_apply, val_main_v47_apply, val_main_v46_apply, ec k, Ideal.hostDivf_def, count_again]
  have s2 : ∑ k : Fin 128, val_main_v29 (F := Ideal) x0 x1 x3 x4 x5 (lidx_main_v53 (ix2 p q) k) * x8 (ridx_main_v53 (ix2 p q) k)
      = ∑ k : Fin 128, val_main_v29 (F := Ideal) x0 x1 x3 x4 x5 (ix2 p k) * x8 (ix2 k q) :=
    Finset.sum_congr rfl fun k _ => by rw [el' k, er' k]
  rw [s1, s2]

/-- The decode's output at entry `(p, q)`. -/
theorem score_apply (x0 : (⟨S50000x128, .f32⟩ : BufTy).Contents (Elt Ideal)) (x1 : (⟨S2x800000, .i32⟩ : BufTy).Contents (Elt Ideal))
    (x2 : (⟨S2x200000, .i32⟩ : BufTy).Contents (Elt Ideal))
    (x3 : (⟨S128x128, .f32⟩ : BufTy).Contents (Elt Ideal)) (x4 : (⟨S128, .f32⟩ : BufTy).Contents (Elt Ideal))
    (x5 : (⟨S128x128, .f32⟩ : BufTy).Contents (Elt Ideal)) (x6 : (⟨S128x64, .f32⟩ : BufTy).Contents (Elt Ideal))
    (x7 : (⟨S64, .f32⟩ : BufTy).Contents (Elt Ideal)) (x8 : (⟨S128x64, .f32⟩ : BufTy).Contents (Elt Ideal))
    (x9 : (⟨S128x1, .f32⟩ : BufTy).Contents (Elt Ideal)) (x10 : (⟨S1, .f32⟩ : BufTy).Contents (Elt Ideal)) (p : Fin 200000) (q : Fin 1) :
    val_main_v83 (F := Ideal) x0 x1 x2 x3 x4 x5 x6 x7 x8 x9 x10 (ix2 p q)
      = Ideal.div (Ideal.ofBits .f32 0x3F800000#32) (Ideal.ofBits .f32 0x3F800000#32
          + Ideal.exp (-(∑ k : Fin 128, val_main_v73 (F := Ideal) x0 x1 x2 x3 x4 x5 x6 x7 x8 (ix2 p k) * x9 (ix2 k q) + x10 (ix1 (0 : Fin 1))))) := by
  have el : ∀ k : Fin 128, lidx_main_v74 (ix2 p q) k = ix2 p k := fun k => funext fun a => Fin.ext (by
    match a with | ⟨0, _⟩ => rfl | ⟨1, _⟩ => rfl)
  have er : ∀ k : Fin 128, ridx_main_v74 (ix2 p q) k = ix2 k q := fun k => funext fun a => Fin.ext (by
    match a with | ⟨0, _⟩ => rfl | ⟨1, _⟩ => rfl)
  have eb : idx_main_v75 (idx_main_v76 (ix2 p q)) = ix1 (0 : Fin 1) := funext fun a => Fin.ext (by
    match a with | ⟨0, _⟩ => rfl)
  rw [val_main_v83_apply, val_main_v82_apply, val_main_cst_15_apply, val_main_v81_apply, val_main_v80_apply, val_main_cst_14_apply,
    val_main_v79_apply, val_main_v78_apply, val_main_v77_apply, val_main_v74_apply, val_main_v76_apply, val_main_v75_apply, eb,
    Ideal.hostDivf_def, Ideal.ofBits_def, Ideal.addf_def, Ideal.hostUnary_exp_def, Ideal.hostNegf_def, Ideal.negf_def, Ideal.addf_def]
  have s1 : ∑ k : Fin 128, val_main_v73 (F := Ideal) x0 x1 x2 x3 x4 x5 x6 x7 x8 (lidx_main_v74 (ix2 p q) k) * x9 (ridx_main_v74 (ix2 p q) k)
      = ∑ k : Fin 128, val_main_v73 (F := Ideal) x0 x1 x2 x3 x4 x5 x6 x7 x8 (ix2 p k) * x9 (ix2 k q) :=
    Finset.sum_congr rfl fun k _ => by rw [el k, er k]
  rw [s1]

end Cert.ReferenceIdeal.Layers

end
-- ==== Proof.LibLayerAlgebra.lean ====
/-
  The two laws that join the kernel's dense layer to the reference's, on the extended reals.

  * The kernel scales a row of aggregated sums by the RECIPROCAL of the row's count, `a · (1 / y)`, where the
    reference DIVIDES by the count, `a / y`. For a real `y ≠ 0` these agree for every extended real `a`, the
    infinities included: the quotient by a nonzero real is by definition the product with its real reciprocal.
  * The kernel adds the two matrix products first and the bias last, the reference adds the bias between them.
    Addition of extended reals is commutative and associative, so the groupings agree with no finiteness.
-/
import Idealize.ShloMosaic.PureOps.Ideal.Laws

noncomputable section

namespace LibLayerAlgebra

open Idealize.ShloMosaic

/-- Multiplying by the reciprocal of a nonzero real is dividing by it. `one` is any spelling of the real one. -/
theorem mul_recip_eq_div {one : EReal} (hone : one = 1) {y : ℝ} (hy : y ≠ 0) (a : EReal) :
    a * Ideal.div one (y : EReal) = Ideal.div a (y : EReal) := by
  rw [hone, Ideal.div_coe hy 1, one_mul, Ideal.div_coe hy a]

/-- The bias added last is the bias added between the two products. -/
theorem bias_last_eq_between (A B b : EReal) : (A + B) + b = (A + b) + B := add_right_comm A B b

end LibLayerAlgebra

end
-- ==== Proof.Layers.lean ====
/-
  The kernel's three regions against the reference's three layers, on the extended reals.

  Entering each dense region, the kernel's aggregated sums have been multiplied, row by row, by the reciprocal of the
  row's clamped count; the reference divides by the clamped count instead. The count is a positive real, so the two
  agree entry by entry, infinities included. The kernel rounds its operands to a narrower float format before the
  matrix unit; on the extended reals that is the identity. The kernel adds the bias after both products, the reference
  between them; addition of extended reals is commutative and associative. The kernel's logistic is by definition the
  expression `1 / (1 + exp (−z))` the reference spells out. So each region's array is the reference's layer of the same
  inputs.
-/
import proofs.«167707_j61263413510801_2_alg».proof.Defs
import proofs.«167707_j61263413510801_2_alg».proof.Proof.Region0
import proofs.«167707_j61263413510801_2_alg».proof.Proof.Region1
import proofs.«167707_j61263413510801_2_alg».proof.Proof.Region2
import proofs.«167707_j61263413510801_2_alg».proof.Proof.RefLayers
import proofs.«167707_j61263413510801_2_alg».proof.Proof.LibLayerAlgebra
import proofs.«167707_j61263413510801_2_alg».proof.Proof.LibHostIdeal
import proofs.«167707_j61263413510801_2_alg».proof.Proof.LibMeanAlgebra
import Idealize.ShloMosaic.Lib.Pipeline.Value
import Idealize.ShloMosaic.Lib.ValueIdx
import Idealize.ShloMosaic.Lib.ValueLayout

set_option maxRecDepth 16384

noncomputable section

open scoped BigOperators

namespace Cert.Layers

open Cert.KernelIdeal Cert.KernelIdeal.Gen
open Idealize.ShloMosaic Idealize.ShloMosaic.ValueIdx
open Cert.ReferenceIdeal.Read (val_main_v13 val_main_v18 val_main_v19 val_main_v29 val_main_v39 val_main_v54 val_main_v73 val_main_v83)

/-- The reciprocal of each row's clamped count, spread over the 128 feature columns. -/
def recipCol (x1 : S2x800000.Idx → Elt Ideal .i32) : FVec Ideal S50000x128 .f32 :=
  broadcastInDim S50000x128 ![0, 1] bcast_S50000x1_S50000x128_0_1 (broadcastInDim S50000x1 ![0] bcast_S50000_S50000x1_0
    (Host.divf (F := Ideal) (val_main_v18 (F := Ideal)) (val_main_v19 (F := Ideal) x1)))

/-- At `(p, k)` it is one over row `p`'s clamped count. -/
theorem recipCol_apply (x1 : S2x800000.Idx → Elt Ideal .i32) (p : Fin 50000) (k : Fin 128) :
    recipCol x1 (ix2 p k) = Ideal.div (val_main_v18 (F := Ideal) (ix1 p)) (val_main_v19 (F := Ideal) x1 (ix1 p)) := by
  unfold recipCol
  rw [broadcastInDim_apply _ bcast_S50000x1_S50000x128_0_1 _ (ix2 p k) (ix2 p (0 : Fin 1)) (fun a => match a with
        | ⟨0, _⟩ => by show p.val = if (50000 : Nat) = 1 then 0 else p.val; rw [if_neg (by decide)]
        | ⟨1, _⟩ => by show 0 = if (1 : Nat) = 1 then 0 else k.val; rw [if_pos rfl]),
      broadcastInDim_apply _ bcast_S50000_S50000x1_0 _ (ix2 p (0 : Fin 1)) (ix1 p) (fun a => match a with
        | ⟨0, _⟩ => by show p.val = if (50000 : Nat) = 1 then 0 else p.val; rw [if_neg (by decide)]),
      LibHostIdeal.divf_ideal_apply]

/-- MULTIPLYING BY THE RECIPROCAL COUNT IS DIVIDING BY THE COUNT, at every entry of any array of sums. -/
theorem scaled_apply (agg : FVec Ideal S50000x128 .f32) (x1 : S2x800000.Idx → Elt Ideal .i32) (p : Fin 50000) (k : Fin 128) :
    mulf agg (recipCol x1) (ix2 p k) = Ideal.div (agg (ix2 p k)) (val_main_v19 (F := Ideal) x1 (ix1 p)) := by
  obtain ⟨y, hy, e⟩ := Cert.ReferenceIdeal.Layers.count_pos x1 p
  rw [mulf_apply, recipCol_apply, e]
  exact LibLayerAlgebra.mul_recip_eq_div (Cert.ReferenceIdeal.Layers.ones_apply (ix1 p)) (ne_of_gt hy) _

/-- The first region's mean operand: the aggregated neighbour features times the reciprocal counts. -/
def mean1 (x0 : S50000x128.Idx → Elt Ideal .f32) (x1 : S2x800000.Idx → Elt Ideal .i32) : FVec Ideal S50000x128 .f32 :=
  mulf (val_main_v13 (F := Ideal) x0 x1) (recipCol x1)

/-- The second region's mean operand: the aggregated hidden features times the reciprocal counts. -/
def mean2 (x0 : S50000x128.Idx → Elt Ideal .f32) (x1 : S2x800000.Idx → Elt Ideal .i32)
    (x3 : S128x128.Idx → Elt Ideal .f32) (x4 : S128.Idx → Elt Ideal .f32) (x5 : S128x128.Idx → Elt Ideal .f32) : FVec Ideal S50000x128 .f32 :=
  mulf (val_main_v39 (F := Ideal) x0 x1 x3 x4 x5) (recipCol x1)

/-- THE FIRST REGION'S ARRAY IS THE REFERENCE'S FIRST LAYER. -/
theorem layer0_eq (x0 : S50000x128.Idx → Elt Ideal .f32) (x1 : S2x800000.Idx → Elt Ideal .i32)
    (x3 : S128x128.Idx → Elt Ideal .f32) (x4 : S128.Idx → Elt Ideal .f32) (x5 : S128x128.Idx → Elt Ideal .f32) :
    Cert.KernelIdeal.Region0.dense (mean1 x0 x1) x0 (truncf (F := Ideal) (s := S128x128) (φ := .f32) .bf16 x3 bitsLt_bf16_f32) (truncf (F := Ideal) (s := S128x128) (φ := .f32) .bf16 x5 bitsLt_bf16_f32)
      (shapeCast (α := Elt Ideal .f32) S1x128 x4 shapeCasts_S128_S1x128) = val_main_v29 (F := Ideal) x0 x1 x3 x4 x5 := by
  funext i
  obtain ⟨p, q, rfl⟩ : ∃ (p : Fin 50000) (q : Fin 128), i = ix2 p q := ⟨i 0, i 1, eq_ix2 i⟩
  rw [Cert.ReferenceIdeal.Layers.hidden_apply, Cert.KernelIdeal.Region0.dense_apply, shapeCast_a_1a_apply]
  have s1 : ∑ k : Fin 128, mean1 x0 x1 (ix2 p k) * (truncf (F := Ideal) (s := S128x128) (φ := .f32) .bf16 x3 bitsLt_bf16_f32) (ix2 k q)
      = ∑ k : Fin 128, Ideal.div (val_main_v13 (F := Ideal) x0 x1 (ix2 p k)) (val_main_v19 (F := Ideal) x1 (ix1 p)) * x3 (ix2 k q) :=
    Finset.sum_congr rfl fun k _ => by rw [mean1, scaled_apply, truncf_apply]
  have s2 : ∑ k : Fin 128, x0 (ix2 p k) * (truncf (F := Ideal) (s := S128x128) (φ := .f32) .bf16 x5 bitsLt_bf16_f32) (ix2 k q)
      = ∑ k : Fin 128, x0 (ix2 p k) * x5 (ix2 k q) :=
    Finset.sum_congr rfl fun k _ => by rw [truncf_apply]
  rw [s1, s2, LibLayerAlgebra.bias_last_eq_between]

/-- THE SECOND REGION'S ARRAY IS THE REFERENCE'S SECOND LAYER. -/
theorem layer1_eq (x0 : S50000x128.Idx → Elt Ideal .f32) (x1 : S2x800000.Idx → Elt Ideal .i32)
    (x3 : S128x128.Idx → Elt Ideal .f32) (x4 : S128.Idx → Elt Ideal .f32) (x5 : S128x128.Idx → Elt Ideal .f32)
    (x6 : S128x64.Idx → Elt Ideal .f32) (x7 : S64.Idx → Elt Ideal .f32) (x8 : S128x64.Idx → Elt Ideal .f32) :
    Cert.KernelIdeal.Region1.dense (mean2 x0 x1 x3 x4 x5) (val_main_v29 (F := Ideal) x0 x1 x3 x4 x5)
      (truncf (F := Ideal) (s := S128x64) (φ := .f32) .bf16 x6 bitsLt_bf16_f32) (truncf (F := Ideal) (s := S128x64) (φ := .f32) .bf16 x8 bitsLt_bf16_f32) (shapeCast (α := Elt Ideal .f32) S1x64 x7 shapeCasts_S64_S1x64)
      = val_main_v54 (F := Ideal) x0 x1 x3 x4 x5 x6 x7 x8 := by
  funext i
  obtain ⟨p, q, rfl⟩ : ∃ (p : Fin 50000) (q : Fin 64), i = ix2 p q := ⟨i 0, i 1, eq_ix2 i⟩
  rw [Cert.ReferenceIdeal.Layers.embed_apply, Cert.KernelIdeal.Region1.dense_apply, shapeCast_a_1a_apply]
  have s1 : ∑ k : Fin 128, mean2 x0 x1 x3 x4 x5 (ix2 p k) * (truncf (F := Ideal) (s := S128x64) (φ := .f32) .bf16 x6 bitsLt_bf16_f32) (ix2 k q)
      = ∑ k : Fin 128, Ideal.div (val_main_v39 (F := Ideal) x0 x1 x3 x4 x5 (ix2 p k)) (val_main_v19 (F := Ideal) x1 (ix1 p)) * x6 (ix2 k q) :=
    Finset.sum_congr rfl fun k _ => by rw [mean2, scaled_apply, truncf_apply]
  have s2 : ∑ k : Fin 128, val_main_v29 (F := Ideal) x0 x1 x3 x4 x5 (ix2 p k) * (truncf (F := Ideal) (s := S128x64) (φ := .f32) .bf16 x8 bitsLt_bf16_f32) (ix2 k q)
      = ∑ k : Fin 128, val_main_v29 (F := Ideal) x0 x1 x3 x4 x5 (ix2 p k) * x8 (ix2 k q) :=
    Finset.sum_congr rfl fun k _ => by rw [truncf_apply]
  rw [s1, s2, LibLayerAlgebra.bias_last_eq_between]

/-- THE DECODE REGION'S ARRAY IS THE REFERENCE'S SCORES. -/
theorem layer2_eq (x0 : S50000x128.Idx → Elt Ideal .f32) (x1 : S2x800000.Idx → Elt Ideal .i32) (x2 : S2x200000.Idx → Elt Ideal .i32)
    (x3 : S128x128.Idx → Elt Ideal .f32) (x4 : S128.Idx → Elt Ideal .f32) (x5 : S128x128.Idx → Elt Ideal .f32)
    (x6 : S128x64.Idx → Elt Ideal .f32) (x7 : S64.Idx → Elt Ideal .f32) (x8 : S128x64.Idx → Elt Ideal .f32)
    (x9 : S128x1.Idx → Elt Ideal .f32) (x10 : S1.Idx → Elt Ideal .f32) :
    Cert.KernelIdeal.Region2.decode (val_main_v73 (F := Ideal) x0 x1 x2 x3 x4 x5 x6 x7 x8) (truncf (F := Ideal) (s := S128x1) (φ := .f32) .bf16 x9 bitsLt_bf16_f32)
      (shapeCast (α := Elt Ideal .f32) S1x1 x10 shapeCasts_S1_S1x1) = val_main_v83 (F := Ideal) x0 x1 x2 x3 x4 x5 x6 x7 x8 x9 x10 := by
  funext i
  obtain ⟨p, q, rfl⟩ : ∃ (p : Fin 200000) (q : Fin 1), i = ix2 p q := ⟨i 0, i 1, eq_ix2 i⟩
  obtain rfl : q = 0 := Subsingleton.elim q 0
  rw [Cert.ReferenceIdeal.Layers.score_apply, Cert.KernelIdeal.Region2.decode_apply, shapeCast_a_1a_apply]
  have s1 : ∑ k : Fin 128, val_main_v73 (F := Ideal) x0 x1 x2 x3 x4 x5 x6 x7 x8 (ix2 p k)
        * (truncf (F := Ideal) (s := S128x1) (φ := .f32) .bf16 x9 bitsLt_bf16_f32) (ix2 k (0 : Fin 1))
      = ∑ k : Fin 128, val_main_v73 (F := Ideal) x0 x1 x2 x3 x4 x5 x6 x7 x8 (ix2 p k) * x9 (ix2 k (0 : Fin 1)) :=
    Finset.sum_congr rfl fun k _ => by rw [truncf_apply]
  rw [s1, Ideal.logistic, LibMeanAlgebra.ofBits_one]

end Cert.Layers

end
-- ==== Proof.Entry0.lean ====
/-
  What the first dense region is entered with, and what it leaves.

  The first stretch of host operations gathers each edge's source features, adds them up per destination node, counts
  each node's incoming edges, and multiplies the sums by the reciprocal of the clamped counts: the region's mean operand.
  Beside it the region stages the node features themselves, the two weight matrices narrowed to the matrix unit's format,
  and the bias as a row. By the region's closed form and the first layer's equality, the array the region leaves is the
  reference's first layer of the arguments.
-/
import proofs.«167707_j61263413510801_2_alg».proof.Defs
import proofs.«167707_j61263413510801_2_alg».proof.Proof.Gen.KernelIdeal.Frame
import proofs.«167707_j61263413510801_2_alg».proof.Proof.Gen.ReferenceIdeal.Read
import proofs.«167707_j61263413510801_2_alg».proof.Proof.Region0
import proofs.«167707_j61263413510801_2_alg».proof.Proof.Layers

set_option maxRecDepth 16384

noncomputable section

namespace Cert.KernelIdeal.Entry0

open Cert.KernelIdeal Cert.KernelIdeal.Gen
open Idealize.ShloMosaic Idealize.ShloMosaic.TcCoe Idealize.SL.Sem Idealize.ShloMosaic.StableHlo
open Cert.ReferenceIdeal.Read (val_main_v1 val_main_v3 val_main_v18 val_main_v19 val_main_v29 val_main_v54 val_main_v73 val_main_v83 val_main_v84)
open Cert.Layers (mean1 mean2 recipCol)

variable (m : (ℓ : Loc nD τ sig) → Buf (Elt Ideal) ℓ) (ρ : Dev nD → PrngReg)

/-- The mean operand: the aggregated neighbour features times the reciprocal counts. -/
theorem mean (c : Dev nD) : W1 (F := Ideal) m ρ c (Proc.devRef .tc main_v24) = mean1 (m ((c : Thread nD τ).loc main_arg0)) (m ((c : Thread nD τ).loc main_arg1)) := by
  show StableHlo.after hostOps0 _ (Proc.devRef .tc main_v24) = _
  after_results_simp
  rfl

/-- The node features are the first argument, untouched. -/
theorem feat (c : Dev nD) : W1 (F := Ideal) m ρ c (Proc.devRef .tc main_arg0) = (m ((c : Thread nD τ).loc main_arg0)) := by
  show StableHlo.after hostOps0 _ (Proc.devRef .tc main_arg0) = _
  after_results_simp <;> rfl

/-- The left weights, narrowed. -/
theorem wl (c : Dev nD) : W1 (F := Ideal) m ρ c (Proc.devRef .tc main_v25)
    = truncf (F := Ideal) (s := S128x128) (φ := .f32) .bf16 (m ((c : Thread nD τ).loc main_arg3)) bitsLt_bf16_f32 := by
  show StableHlo.after hostOps0 _ (Proc.devRef .tc main_v25) = _
  after_results_simp <;> rfl

/-- The right weights, narrowed. -/
theorem wr (c : Dev nD) : W1 (F := Ideal) m ρ c (Proc.devRef .tc main_v26)
    = truncf (F := Ideal) (s := S128x128) (φ := .f32) .bf16 (m ((c : Thread nD τ).loc main_arg5)) bitsLt_bf16_f32 := by
  show StableHlo.after hostOps0 _ (Proc.devRef .tc main_v26) = _
  after_results_simp <;> rfl

/-- The bias as a row. -/
theorem bias (c : Dev nD) : W1 (F := Ideal) m ρ c (Proc.devRef .tc main_v27)
    = shapeCast (α := Elt Ideal .f32) S1x128 (m ((c : Thread nD τ).loc main_arg4)) shapeCasts_S128_S1x128 := by
  show StableHlo.after hostOps0 _ (Proc.devRef .tc main_v27) = _
  after_results_simp <;> rfl

/-- WHAT THE FIRST REGION LEAVES is the reference's first layer of the arguments. -/
theorem hidden (c : Dev nD) : W2 (F := Ideal) m ρ c (Proc.devRef .tc main_v28) = val_main_v29 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  refine (W2_arr m ρ c 5).trans ?_
  rw [Cert.KernelIdeal.Region0.final (V1 m ρ) c]
  show Cert.KernelIdeal.Region0.dense (W1 (F := Ideal) m ρ c (Proc.devRef .tc main_v24)) (W1 (F := Ideal) m ρ c (Proc.devRef .tc main_arg0))
    (W1 (F := Ideal) m ρ c (Proc.devRef .tc main_v25)) (W1 (F := Ideal) m ρ c (Proc.devRef .tc main_v26))
    (W1 (F := Ideal) m ρ c (Proc.devRef .tc main_v27)) = _
  rw [mean m ρ c, feat m ρ c, wl m ρ c, wr m ρ c, bias m ρ c]
  exact Cert.Layers.layer0_eq _ _ _ _ _

end Cert.KernelIdeal.Entry0

end
-- ==== Proof.Carry0.lean ====
/-
  What the first dense region leaves untouched.

  The region writes one array, its output. Everything the first stretch of host operations computed beside the region's
  operands — each edge's source and destination index, the reciprocal counts — and every argument array is afterwards
  what it was before the region, and the later stretches read them there.
-/
import proofs.«167707_j61263413510801_2_alg».proof.Defs
import proofs.«167707_j61263413510801_2_alg».proof.Proof.Gen.KernelIdeal.Frame
import proofs.«167707_j61263413510801_2_alg».proof.Proof.Gen.ReferenceIdeal.Read

set_option maxRecDepth 16384

noncomputable section

namespace Cert.KernelIdeal.Carry0

open Cert.KernelIdeal Cert.KernelIdeal.Gen
open Idealize.ShloMosaic Idealize.ShloMosaic.TcCoe Idealize.SL.Sem Idealize.ShloMosaic.StableHlo
open Cert.ReferenceIdeal.Read (val_main_v1 val_main_v3 val_main_v18 val_main_v19 val_main_v29 val_main_v54 val_main_v73 val_main_v83 val_main_v84)

variable (m : (ℓ : Loc nD τ sig) → Buf (Elt Ideal) ℓ) (ρ : Dev nD → PrngReg)

/-- The edges' source indices. -/
theorem src (c : Dev nD) : W2 (F := Ideal) m ρ c (Proc.devRef .tc main_v1) = val_main_v1 (F := Ideal) (m ((c : Thread nD τ).loc main_arg1)) := by
  refine (W2_of_ne m ρ c main_v1 (by decide)).trans ?_
  show StableHlo.after hostOps0 _ (Proc.devRef .tc main_v1) = _
  after_results_simp <;> rfl

/-- The edges' destination indices. -/
theorem dst (c : Dev nD) : W2 (F := Ideal) m ρ c (Proc.devRef .tc main_v3) = val_main_v3 (F := Ideal) (m ((c : Thread nD τ).loc main_arg1)) := by
  refine (W2_of_ne m ρ c main_v3 (by decide)).trans ?_
  show StableHlo.after hostOps0 _ (Proc.devRef .tc main_v3) = _
  after_results_simp <;> rfl

/-- The reciprocal of each node's clamped count. -/
theorem recip (c : Dev nD) : W2 (F := Ideal) m ρ c (Proc.devRef .tc main_v21)
    = Host.divf (F := Ideal) (s := S50000) (φ := .f32) (val_main_v18 (F := Ideal)) (val_main_v19 (F := Ideal) (m ((c : Thread nD τ).loc main_arg1))) := by
  refine (W2_of_ne m ρ c main_v21 (by decide)).trans ?_
  show StableHlo.after hostOps0 _ (Proc.devRef .tc main_v21) = _
  after_results_simp <;> rfl

/-- Argument 6, untouched. -/
theorem arg6 (c : Dev nD) : W2 (F := Ideal) m ρ c (Proc.devRef .tc main_arg6) = (m ((c : Thread nD τ).loc main_arg6)) := by
  refine (W2_of_ne m ρ c main_arg6 (by decide)).trans ?_
  show StableHlo.after hostOps0 _ (Proc.devRef .tc main_arg6) = _
  after_results_simp <;> rfl

/-- Argument 7, untouched. -/
theorem arg7 (c : Dev nD) : W2 (F := Ideal) m ρ c (Proc.devRef .tc main_arg7) = (m ((c : Thread nD τ).loc main_arg7)) := by
  refine (W2_of_ne m ρ c main_arg7 (by decide)).trans ?_
  show StableHlo.after hostOps0 _ (Proc.devRef .tc main_arg7) = _
  after_results_simp <;> rfl

/-- Argument 8, untouched. -/
theorem arg8 (c : Dev nD) : W2 (F := Ideal) m ρ c (Proc.devRef .tc main_arg8) = (m ((c : Thread nD τ).loc main_arg8)) := by
  refine (W2_of_ne m ρ c main_arg8 (by decide)).trans ?_
  show StableHlo.after hostOps0 _ (Proc.devRef .tc main_arg8) = _
  after_results_simp <;> rfl

/-- Argument 2, untouched. -/
theorem arg2 (c : Dev nD) : W2 (F := Ideal) m ρ c (Proc.devRef .tc main_arg2) = (m ((c : Thread nD τ).loc main_arg2)) := by
  refine (W2_of_ne m ρ c main_arg2 (by decide)).trans ?_
  show StableHlo.after hostOps0 _ (Proc.devRef .tc main_arg2) = _
  after_results_simp <;> rfl

/-- Argument 9, untouched. -/
theorem arg9 (c : Dev nD) : W2 (F := Ideal) m ρ c (Proc.devRef .tc main_arg9) = (m ((c : Thread nD τ).loc main_arg9)) := by
  refine (W2_of_ne m ρ c main_arg9 (by decide)).trans ?_
  show StableHlo.after hostOps0 _ (Proc.devRef .tc main_arg9) = _
  after_results_simp <;> rfl

/-- Argument 10, untouched. -/
theorem arg10 (c : Dev nD) : W2 (F := Ideal) m ρ c (Proc.devRef .tc main_arg10) = (m ((c : Thread nD τ).loc main_arg10)) := by
  refine (W2_of_ne m ρ c main_arg10 (by decide)).trans ?_
  show StableHlo.after hostOps0 _ (Proc.devRef .tc main_arg10) = _
  after_results_simp <;> rfl

end Cert.KernelIdeal.Carry0

end
-- ==== Proof.Entry1.lean ====
/-
  What the second dense region is entered with, and what it leaves.

  The second stretch of host operations gathers each edge's source row of the FIRST region's output, adds the rows up per
  destination node, and multiplies the sums by the same reciprocal counts as before: the region's mean operand. Beside it
  the region stages the first region's output itself, the second layer's two weight matrices narrowed, and its bias as a
  row. By the region's closed form and the second layer's equality, the array the region leaves is the reference's second
  layer of the arguments.
-/
import proofs.«167707_j61263413510801_2_alg».proof.Defs
import proofs.«167707_j61263413510801_2_alg».proof.Proof.Gen.KernelIdeal.Frame
import proofs.«167707_j61263413510801_2_alg».proof.Proof.Gen.ReferenceIdeal.Read
import proofs.«167707_j61263413510801_2_alg».proof.Proof.Region1
import proofs.«167707_j61263413510801_2_alg».proof.Proof.Layers
import proofs.«167707_j61263413510801_2_alg».proof.Proof.Entry0
import proofs.«167707_j61263413510801_2_alg».proof.Proof.Carry0

set_option maxRecDepth 16384

noncomputable section

namespace Cert.KernelIdeal.Entry1

open Cert.KernelIdeal Cert.KernelIdeal.Gen
open Idealize.ShloMosaic Idealize.ShloMosaic.TcCoe Idealize.SL.Sem Idealize.ShloMosaic.StableHlo
open Cert.ReferenceIdeal.Read (val_main_v1 val_main_v3 val_main_v18 val_main_v19 val_main_v29 val_main_v54 val_main_v73 val_main_v83 val_main_v84)
open Cert.Layers (mean1 mean2 recipCol)

variable (m : (ℓ : Loc nD τ sig) → Buf (Elt Ideal) ℓ) (ρ : Dev nD → PrngReg)

/-- The mean operand: the aggregated hidden features times the reciprocal counts. -/
theorem mean (c : Dev nD) : W3 (F := Ideal) m ρ c (Proc.devRef .tc main_v41) = mean2 (m ((c : Thread nD τ).loc main_arg0)) (m ((c : Thread nD τ).loc main_arg1)) (m ((c : Thread nD τ).loc main_arg3)) (m ((c : Thread nD τ).loc main_arg4)) (m ((c : Thread nD τ).loc main_arg5)) := by
  show StableHlo.after hostOps1 _ (Proc.devRef .tc main_v41) = _
  after_results_simp
  rw [Cert.KernelIdeal.Entry0.hidden m ρ c, Cert.KernelIdeal.Carry0.src m ρ c, Cert.KernelIdeal.Carry0.dst m ρ c,
    Cert.KernelIdeal.Carry0.recip m ρ c]
  rfl

/-- The hidden features are the first region's output, untouched by the stretch. -/
theorem feat (c : Dev nD) : W3 (F := Ideal) m ρ c (Proc.devRef .tc main_v28) = val_main_v29 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  show StableHlo.after hostOps1 _ (Proc.devRef .tc main_v28) = _
  after_results_simp
  exact Cert.KernelIdeal.Entry0.hidden m ρ c

/-- The left weights, narrowed. -/
theorem wl (c : Dev nD) : W3 (F := Ideal) m ρ c (Proc.devRef .tc main_v42)
    = truncf (F := Ideal) (s := S128x64) (φ := .f32) .bf16 (m ((c : Thread nD τ).loc main_arg6)) bitsLt_bf16_f32 := by
  show StableHlo.after hostOps1 _ (Proc.devRef .tc main_v42) = _
  after_results_simp
  rw [Cert.KernelIdeal.Carry0.arg6 m ρ c]

/-- The right weights, narrowed. -/
theorem wr (c : Dev nD) : W3 (F := Ideal) m ρ c (Proc.devRef .tc main_v43)
    = truncf (F := Ideal) (s := S128x64) (φ := .f32) .bf16 (m ((c : Thread nD τ).loc main_arg8)) bitsLt_bf16_f32 := by
  show StableHlo.after hostOps1 _ (Proc.devRef .tc main_v43) = _
  after_results_simp
  rw [Cert.KernelIdeal.Carry0.arg8 m ρ c]

/-- The bias as a row. -/
theorem bias (c : Dev nD) : W3 (F := Ideal) m ρ c (Proc.devRef .tc main_v44)
    = shapeCast (α := Elt Ideal .f32) S1x64 (m ((c : Thread nD τ).loc main_arg7)) shapeCasts_S64_S1x64 := by
  show StableHlo.after hostOps1 _ (Proc.devRef .tc main_v44) = _
  after_results_simp
  rw [Cert.KernelIdeal.Carry0.arg7 m ρ c] <;> rfl

/-- WHAT THE SECOND REGION LEAVES is the reference's second layer of the arguments. -/
theorem embed (c : Dev nD) : W4 (F := Ideal) m ρ c (Proc.devRef .tc main_v45) = val_main_v54 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W4_arr m ρ c 5).trans ?_
  rw [Cert.KernelIdeal.Region1.final (V3 m ρ) c]
  show Cert.KernelIdeal.Region1.dense (W3 (F := Ideal) m ρ c (Proc.devRef .tc main_v41)) (W3 (F := Ideal) m ρ c (Proc.devRef .tc main_v28))
    (W3 (F := Ideal) m ρ c (Proc.devRef .tc main_v42)) (W3 (F := Ideal) m ρ c (Proc.devRef .tc main_v43))
    (W3 (F := Ideal) m ρ c (Proc.devRef .tc main_v44)) = _
  rw [mean m ρ c, feat m ρ c, wl m ρ c, wr m ρ c, bias m ρ c]
  exact Cert.Layers.layer1_eq _ _ _ _ _ _ _ _

end Cert.KernelIdeal.Entry1

end
-- ==== Proof.Carry1.lean ====
/-
  The arguments the decode still needs, carried past the second stretch and the second region.

  Neither writes an argument array: the stretch's operations write their own results, the region its output.
-/
import proofs.«167707_j61263413510801_2_alg».proof.Defs
import proofs.«167707_j61263413510801_2_alg».proof.Proof.Gen.KernelIdeal.Frame
import proofs.«167707_j61263413510801_2_alg».proof.Proof.Gen.ReferenceIdeal.Read
import proofs.«167707_j61263413510801_2_alg».proof.Proof.Carry0

set_option maxRecDepth 16384

noncomputable section

namespace Cert.KernelIdeal.Carry1

open Cert.KernelIdeal Cert.KernelIdeal.Gen
open Idealize.ShloMosaic Idealize.ShloMosaic.TcCoe Idealize.SL.Sem Idealize.ShloMosaic.StableHlo
open Cert.ReferenceIdeal.Read (val_main_v1 val_main_v3 val_main_v18 val_main_v19 val_main_v29 val_main_v54 val_main_v73 val_main_v83 val_main_v84)

variable (m : (ℓ : Loc nD τ sig) → Buf (Elt Ideal) ℓ) (ρ : Dev nD → PrngReg)

/-- Argument 2, untouched. -/
theorem arg2 (c : Dev nD) : W4 (F := Ideal) m ρ c (Proc.devRef .tc main_arg2) = (m ((c : Thread nD τ).loc main_arg2)) := by
  refine (W4_of_ne m ρ c main_arg2 (by decide)).trans ?_
  show StableHlo.after hostOps1 _ (Proc.devRef .tc main_arg2) = _
  after_results_simp
  exact Cert.KernelIdeal.Carry0.arg2 m ρ c

/-- Argument 9, untouched. -/
theorem arg9 (c : Dev nD) : W4 (F := Ideal) m ρ c (Proc.devRef .tc main_arg9) = (m ((c : Thread nD τ).loc main_arg9)) := by
  refine (W4_of_ne m ρ c main_arg9 (by decide)).trans ?_
  show StableHlo.after hostOps1 _ (Proc.devRef .tc main_arg9) = _
  after_results_simp
  exact Cert.KernelIdeal.Carry0.arg9 m ρ c

/-- Argument 10, untouched. -/
theorem arg10 (c : Dev nD) : W4 (F := Ideal) m ρ c (Proc.devRef .tc main_arg10) = (m ((c : Thread nD τ).loc main_arg10)) := by
  refine (W4_of_ne m ρ c main_arg10 (by decide)).trans ?_
  show StableHlo.after hostOps1 _ (Proc.devRef .tc main_arg10) = _
  after_results_simp
  exact Cert.KernelIdeal.Carry0.arg10 m ρ c

end Cert.KernelIdeal.Carry1

end
-- ==== Proof.Entry2.lean ====
/-
  What the decode region is entered with, what it leaves, and the result.

  The third stretch of host operations gathers, for each pair, the two endpoints' rows of the SECOND region's output and
  joins them side by side: the region's row-blocked operand. Beside it the region stages the weight column narrowed and
  the bias as a one-by-one array. By the region's closed form and the decode's equality the array the region leaves is the
  reference's column of scores; the last host operation lays that column out as a vector, and so does the reference.
-/
import proofs.«167707_j61263413510801_2_alg».proof.Defs
import proofs.«167707_j61263413510801_2_alg».proof.Proof.Gen.KernelIdeal.Frame
import proofs.«167707_j61263413510801_2_alg».proof.Proof.Gen.ReferenceIdeal.Read
import proofs.«167707_j61263413510801_2_alg».proof.Proof.Region2
import proofs.«167707_j61263413510801_2_alg».proof.Proof.Layers
import proofs.«167707_j61263413510801_2_alg».proof.Proof.Entry1
import proofs.«167707_j61263413510801_2_alg».proof.Proof.Carry1

set_option maxRecDepth 16384

noncomputable section

namespace Cert.KernelIdeal.Entry2

open Cert.KernelIdeal Cert.KernelIdeal.Gen
open Idealize.ShloMosaic Idealize.ShloMosaic.TcCoe Idealize.SL.Sem Idealize.ShloMosaic.StableHlo
open Cert.ReferenceIdeal.Read (val_main_v1 val_main_v3 val_main_v18 val_main_v19 val_main_v29 val_main_v54 val_main_v65 val_main_v72 val_main_v73 val_main_v83 val_main_v84)
open Cert.Layers (mean1 mean2 recipCol)

variable (m : (ℓ : Loc nD τ sig) → Buf (Elt Ideal) ℓ) (ρ : Dev nD → PrngReg)

/-- The contents after a list of host operations followed by another are the second list's after the first's. -/
theorem after_append (l₁ l₂ : List (HloOp τ sig (Elt Ideal))) (V : Valuation τ sig (Elt Ideal)) :
    StableHlo.after (l₁ ++ l₂) V = StableHlo.after l₂ (StableHlo.after l₁ V) := by
  induction l₁ generalizing V with
  | nil => rfl
  | cons op l ih => exact ih (op.result V)

/-- The buffers' contents just before the two gathered halves are joined: the stretch's first 22 operations applied. -/
def beforeJoin (c : Dev nD) : Valuation τ sig (Elt Ideal) :=
  StableHlo.after ((hostOps2 (F := Ideal)).take 22) (W4 (F := Ideal) m ρ c)

/-- The stretch is those 22 operations, then the join and the two operand preparations. -/
theorem split (c : Dev nD) :
    W5 (F := Ideal) m ρ c = StableHlo.after ((hostOps2 (F := Ideal)).drop 22) (beforeJoin m ρ c) := by
  unfold beforeJoin
  rw [← after_append, List.take_append_drop]

/-- The first endpoints' rows of the second region's output. -/
theorem left (c : Dev nD) : beforeJoin m ρ c (Proc.devRef .tc main_v56) = val_main_v65 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  show StableHlo.after ((hostOps2 (F := Ideal)).take 22) _ (Proc.devRef .tc main_v56) = _
  simp only [hostOps2, List.take_succ_cons, List.take_zero]
  after_results_simp
  rw [Cert.KernelIdeal.Entry1.embed m ρ c, Cert.KernelIdeal.Carry1.arg2 m ρ c]
  rfl

/-- The second endpoints' rows of the second region's output. -/
theorem right (c : Dev nD) : beforeJoin m ρ c (Proc.devRef .tc main_v63) = val_main_v72 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  show StableHlo.after ((hostOps2 (F := Ideal)).take 22) _ (Proc.devRef .tc main_v63) = _
  simp only [hostOps2, List.take_succ_cons, List.take_zero]
  after_results_simp
  rw [Cert.KernelIdeal.Entry1.embed m ρ c, Cert.KernelIdeal.Carry1.arg2 m ρ c]
  rfl

/-- The joined pair features. -/
theorem hcat (c : Dev nD) : W5 (F := Ideal) m ρ c (Proc.devRef .tc main_v64) = val_main_v73 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  rw [split m ρ c]
  show StableHlo.after ((hostOps2 (F := Ideal)).drop 22) _ (Proc.devRef .tc main_v64) = _
  simp only [hostOps2, List.drop_succ_cons, List.drop_zero]
  after_results_simp
  rw [left m ρ c, right m ρ c]
  rfl

/-- The weight column, narrowed. -/
theorem w (c : Dev nD) : W5 (F := Ideal) m ρ c (Proc.devRef .tc main_v65)
    = truncf (F := Ideal) (s := S128x1) (φ := .f32) .bf16 (m ((c : Thread nD τ).loc main_arg9)) bitsLt_bf16_f32 := by
  show StableHlo.after hostOps2 _ (Proc.devRef .tc main_v65) = _
  after_results_simp
  rw [Cert.KernelIdeal.Carry1.arg9 m ρ c]

/-- The bias as a one-by-one array. -/
theorem bias (c : Dev nD) : W5 (F := Ideal) m ρ c (Proc.devRef .tc main_v66)
    = shapeCast (α := Elt Ideal .f32) S1x1 (m ((c : Thread nD τ).loc main_arg10)) shapeCasts_S1_S1x1 := by
  show StableHlo.after hostOps2 _ (Proc.devRef .tc main_v66) = _
  after_results_simp
  rw [Cert.KernelIdeal.Carry1.arg10 m ρ c] <;> rfl

/-- WHAT THE DECODE REGION LEAVES is the reference's column of scores. -/
theorem score (c : Dev nD) : W6 (F := Ideal) m ρ c (Proc.devRef .tc main_v67) = val_main_v83 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W6_arr m ρ c 3).trans ?_
  rw [Cert.KernelIdeal.Region2.final (V5 m ρ) c]
  show Cert.KernelIdeal.Region2.decode (W5 (F := Ideal) m ρ c (Proc.devRef .tc main_v64)) (W5 (F := Ideal) m ρ c (Proc.devRef .tc main_v65))
    (W5 (F := Ideal) m ρ c (Proc.devRef .tc main_v66)) = _
  rw [hcat m ρ c, w m ρ c, bias m ρ c]
  exact Cert.Layers.layer2_eq _ _ _ _ _ _ _ _ _ _ _

/-- THE RESULT: the kernel's result buffer ends at the reference's final stage of the arguments. -/
theorem result (c : Dev nD) : W7 (F := Ideal) m ρ c (Proc.devRef .tc main_v68) = val_main_v84 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  show StableHlo.after hostOps3 _ (Proc.devRef .tc main_v68) = _
  after_results_simp
  rw [score m ρ c] <;> rfl

end Cert.KernelIdeal.Entry2

end
-- ==== Proof.lean ====
/- A two-layer mean-aggregating graph network with a link decoder, as three kernel regions among host operations,
   against its plain array reference, on the extended reals.

   Both programs gather each edge's source row, add the rows up per destination node and count each node's incoming
   edges. The kernel then multiplies the sums by the reciprocal of the clamped count, the reference divides by the
   clamped count; the count is a positive real, so these agree at every entry. Each dense layer is two matrix products
   and a bias; the kernel computes them block of rows by block of rows on operands narrowed to the matrix unit's format,
   which is the identity on the extended reals, and adds the bias last where the reference adds it between the products.
   The decoder is a matrix product with one column, a bias and the logistic function, which is by definition the
   expression the reference spells out. So the two results are one function of the arguments.

   The three frames are the generated frame certificates (the reference's is its generated run with the result dropped);
   the idealization rewrote nothing, so what it must preserve is trivial; and the value claim puts side by side the
   idealized kernel's run with its result buffer named (Proof/WholeRun.lean, Proof/Entry2.lean) and the reference's
   generated run, both at the reference's final stage of arguments that agree. -/
import proofs.«167707_j61263413510801_2_alg».proof.Defs
import proofs.«167707_j61263413510801_2_alg».proof.Proof.Gen.Kernel
import proofs.«167707_j61263413510801_2_alg».proof.Proof.Gen.Kernel.Skeleton
import proofs.«167707_j61263413510801_2_alg».proof.Proof.Gen.Kernel.Launch
import proofs.«167707_j61263413510801_2_alg».proof.Proof.Gen.Kernel.Points
import proofs.«167707_j61263413510801_2_alg».proof.Proof.Gen.Kernel.Frame
import proofs.«167707_j61263413510801_2_alg».proof.Proof.Gen.KernelIdeal
import proofs.«167707_j61263413510801_2_alg».proof.Proof.Gen.KernelIdeal.Skeleton
import proofs.«167707_j61263413510801_2_alg».proof.Proof.Gen.KernelIdeal.Launch
import proofs.«167707_j61263413510801_2_alg».proof.Proof.Gen.KernelIdeal.Points
import proofs.«167707_j61263413510801_2_alg».proof.Proof.Gen.KernelIdeal.Frame
import proofs.«167707_j61263413510801_2_alg».proof.Proof.Gen.ReferenceIdeal
import proofs.«167707_j61263413510801_2_alg».proof.Proof.Gen.ReferenceIdeal.Run
import proofs.«167707_j61263413510801_2_alg».proof.Proof.Gen.ReferenceIdeal.Read
import proofs.«167707_j61263413510801_2_alg».proof.Proof.Gen.Pre_finite_inputs
import proofs.«167707_j61263413510801_2_alg».proof.Proof.WholeRun
import proofs.«167707_j61263413510801_2_alg».proof.Proof.Entry2
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the result at the reference's final stage of the
    kernel's arguments: the kernel by its run read boundary by boundary, the reference by its generated run with its
    arguments rewritten to the kernel's. -/
theorem algebraic : Cert.algebraic_KernelIdeal_ReferenceIdeal := by
  intro m ρ m' ρ' _ hagree
  refine ⟨fun c => Cert.ReferenceIdeal.Read.val_main_v84 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.Entry2.result m ρ c), (h c).2⟩)
      (Cert.KernelIdeal.WholeRun.run_result m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9, h10⟩ := hagree c
    rw [Cert.ReferenceIdeal.Read.val_main_v84_eq m' c, h0, h1, h2, h3, h4, h5, h6, h7, h8, h9, h10]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
